-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64 : Shape := ⟨3, ![16, 128, 64]⟩
abbrev S16x128x8 : Shape := ⟨3, ![16, 128, 8]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x128x64 : S_.BroadcastsInDim S16x128x64 (![] : Fin 0 → Fin S16x128x64.rank)
  reducesTo_S16x128x64_S_d0_1_2 : S16x128x64.ReducesTo [0, 1, 2] S_
  h_S_ : 0 < S_.numel
  bcast_S_S16x128x8 : S_.BroadcastsInDim S16x128x8 (![] : Fin 0 → Fin S16x128x8.rank)
  reducesTo_S16x128x8_S_d0_1_2 : S16x128x8.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16x128x64 .f32) (main_arg1 : FVec F S16x128x8 .f32) (main_arg2 : FVec F S128x256 .f32) (main_arg3 : FVec F S256 .f32) (main_arg4 : FVec F S256x1 .f32) (main_arg5 : FVec F S1 .f32) : IVec S_ 1 :=
  let main_v0 : FVec F S16x128x64 .f32 := Host.absf main_arg0
  let main_cst : FVec F S_ .f32 := constant S_ .f32 0x7F800000#32
  let main_v1 : FVec F S16x128x64 .f32 := broadcastInDim S16x128x64 ![] bcast_S_S16x128x64 main_cst
  let main_v2 : IVec S16x128x64 1 := cmpf .olt main_v0 main_v1
  let main_c : IVec S_ 1 := constantI S_ 1 1#1
  let main_v3 : IVec S_ 1 := (fun x v => Host.reduce IntOp.andi x v reducesTo_S16x128x64_S_d0_1_2 h_S_) main_v2 main_c
  let main_v4 : FVec F S16x128x8 .f32 := Host.absf main_arg1
  let main_cst_0 : FVec F S_ .f32 := constant S_ .f32 0x7F800000#32
  let main_v5 : FVec F S16x128x8 .f32 := broadcastInDim S16x128x8 ![] bcast_S_S16x128x8 main_cst_0
  let main_v6 : IVec S16x128x8 1 := cmpf .olt main_v4 main_v5
  let main_c_1 : IVec S_ 1 := constantI S_ 1 1#1
  let main_v7 : IVec S_ 1 := (fun x v => Host.reduce IntOp.andi x v reducesTo_S16x128x8_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x128x64 : Shape := ⟨3, ![16, 128, 64]⟩
abbrev S16x128x8 : Shape := ⟨3, ![16, 128, 8]⟩
abbrev S128x256 : Shape := ⟨2, ![128, 256]⟩
abbrev S256 : Shape := ⟨1, ![256]⟩
abbrev S256x1 : Shape := ⟨2, ![256, 1]⟩
abbrev S1 : Shape := ⟨1, ![1]⟩
abbrev S64x256 : Shape := ⟨2, ![64, 256]⟩
abbrev S1x256 : Shape := ⟨2, ![1, 256]⟩
abbrev S1x1 : Shape := ⟨2, ![1, 1]⟩
abbrev S16x128x128 : Shape := ⟨3, ![16, 128, 128]⟩
abbrev S1x128x64 : Shape := ⟨3, ![1, 128, 64]⟩
abbrev S1x128x128 : Shape := ⟨3, ![1, 128, 128]⟩
abbrev S128x64 : Shape := ⟨2, ![128, 64]⟩
abbrev S1x1x256 : Shape := ⟨3, ![1, 1, 256]⟩
abbrev S16x256 : Shape := ⟨2, ![16, 256]⟩
abbrev S16x1x256 : Shape := ⟨3, ![16, 1, 256]⟩
abbrev S1x128x256 : Shape := ⟨3, ![1, 128, 256]⟩
abbrev S16x128x256 : Shape := ⟨3, ![16, 128, 256]⟩
abbrev S16x128 : Shape := ⟨2, ![16, 128]⟩
abbrev S1x16x128 : Shape := ⟨3, ![1, 16, 128]⟩
abbrev S127 : Shape := ⟨1, ![127]⟩
abbrev S128 : Shape := ⟨1, ![128]⟩
abbrev S1x127 : Shape := ⟨2, ![1, 127]⟩
abbrev S128x1 : Shape := ⟨2, ![128, 1]⟩
abbrev S128x127 : Shape := ⟨2, ![128, 127]⟩
abbrev S1x128x127 : Shape := ⟨3, ![1, 128, 127]⟩
abbrev S16x128x127 : Shape := ⟨3, ![16, 128, 127]⟩
abbrev S_ : Shape := ⟨0, ![]⟩
abbrev S16x128x127x1 : Shape := ⟨4, ![16, 128, 127, 1]⟩
abbrev S1x1x1x1 : Shape := ⟨4, ![1, 1, 1, 1]⟩

abbrev nBuf : Space → Nat
  | .hbm => 47
  | .vmem => 9
  | .smem => 0
  | _ => 0

abbrev bufTy : (tb : Table) → Fin (tcTables nBuf tb) → BufTy
  | .hbm, ⟨0, _⟩ => ⟨S16x128x64, .f32⟩
  | .hbm, ⟨1, _⟩ => ⟨S16x128x8, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S64x256, .f32⟩
  | .hbm, ⟨7, _⟩ => ⟨S64x256, .f32⟩
  | .hbm, ⟨8, _⟩ => ⟨S1x256, .f32⟩
  | .hbm, ⟨9, _⟩ => ⟨S1x256, .f32⟩
  | .hbm, ⟨10, _⟩ => ⟨S1x1, .f32⟩
  | .hbm, ⟨11, _⟩ => ⟨S16x128x128, .f32⟩
  | .hbm, ⟨12, _⟩ => ⟨S127, .i32⟩
  | .hbm, ⟨13, _⟩ => ⟨S128, .i32⟩
  | .hbm, ⟨14, _⟩ => ⟨S1x127, .i32⟩
  | .hbm, ⟨15, _⟩ => ⟨S1x127, .i32⟩
  | .hbm, ⟨16, _⟩ => ⟨S128x1, .i32⟩
  | .hbm, ⟨17, _⟩ => ⟨S128x127, .i32⟩
  | .hbm, ⟨18, _⟩ => ⟨S128x127, .i32⟩
  | .hbm, ⟨19, _⟩ => ⟨S128x127, .i1⟩
  | .hbm, ⟨20, _⟩ => ⟨S128x127, .i32⟩
  | .hbm, ⟨21, _⟩ => ⟨S128x127, .i32⟩
  | .hbm, ⟨22, _⟩ => ⟨S128x127, .i32⟩
  | .hbm, ⟨23, _⟩ => ⟨S1x128x127, .i32⟩
  | .hbm, ⟨24, _⟩ => ⟨S16x128x127, .i32⟩
  | .hbm, ⟨25, _⟩ => ⟨S_, .i32⟩
  | .hbm, ⟨26, _⟩ => ⟨S16x128x127, .i32⟩
  | .hbm, ⟨27, _⟩ => ⟨S16x128x127, .i1⟩
  | .hbm, ⟨28, _⟩ => ⟨S_, .i32⟩
  | .hbm, ⟨29, _⟩ => ⟨S16x128x127, .i32⟩
  | .hbm, ⟨30, _⟩ => ⟨S16x128x127, .i32⟩
  | .hbm, ⟨31, _⟩ => ⟨S16x128x127, .i32⟩
  | .hbm, ⟨32, _⟩ => ⟨S16x128x127x1, .i32⟩
  | .hbm, ⟨33, _⟩ => ⟨S1, .i32⟩
  | .hbm, ⟨34, _⟩ => ⟨S_, .i32⟩
  | .hbm, ⟨35, _⟩ => ⟨S16x128x127x1, .i32⟩
  | .hbm, ⟨36, _⟩ => ⟨S16x128x127x1, .i1⟩
  | .hbm, ⟨37, _⟩ => ⟨S1x1x1x1, .i32⟩
  | .hbm, ⟨38, _⟩ => ⟨S16x128x127x1, .i32⟩
  | .hbm, ⟨39, _⟩ => ⟨S16x128x127x1, .i1⟩
  | .hbm, ⟨40, _⟩ => ⟨S16x128x127x1, .i1⟩
  | .hbm, ⟨41, _⟩ => ⟨S_, .i1⟩
  | .hbm, ⟨42, _⟩ => ⟨S16x128x127, .i1⟩
  | .hbm, ⟨43, _⟩ => ⟨S16x128x127, .f32⟩
  | .hbm, ⟨44, _⟩ => ⟨S_, .f32⟩
  | .hbm, ⟨45, _⟩ => ⟨S16x128x127, .f32⟩
  | .hbm, ⟨46, _⟩ => ⟨S16x128x127, .f32⟩
  | .local _ .vmem, ⟨0, _⟩ => ⟨S1x128x64, .f32⟩
  | .local _ .vmem, ⟨1, _⟩ => ⟨S1x128x64, .f32⟩
  | .local _ .vmem, ⟨2, _⟩ => ⟨S64x256, .f32⟩
  | .local _ .vmem, ⟨3, _⟩ => ⟨S64x256, .f32⟩
  | .local _ .vmem, ⟨4, _⟩ => ⟨S1x256, .f32⟩
  | .local _ .vmem, ⟨5, _⟩ => ⟨S1x256, .f32⟩
  | .local _ .vmem, ⟨6, _⟩ => ⟨S1x1, .f32⟩
  | .local _ .vmem, ⟨7, _⟩ => ⟨S1x128x128, .f32⟩
  | .local _ .vmem, ⟨8, _⟩ => ⟨S1x128x128, .f32⟩
  | _, _ => ⟨S16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v19 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S128x256_S64x256_0_0 : S128x256.Slices ![0, 0] S64x256
  slices_S128x256_S64x256_64_0 : S128x256.Slices ![64, 0] S64x256
  shapeCasts_S256_S1x256 : S256.ShapeCasts S1x256
  transposes_S256x1_S1x256_1_0 : S256x1.Transposes [1, 0] S1x256
  shapeCasts_S1_S1x1 : S1.ShapeCasts S1x1
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x256_S128x256 : S1x256.Broadcasts S128x256
  shapeCasts_S1x256_S1x1x256 : S1x256.ShapeCasts S1x1x256
  slices_S128x256_o0_0_S16x256 : S128x256.Slices ![0, 0] S16x256
  shapeCasts_S16x256_S16x1x256 : S16x256.ShapeCasts S16x1x256
  shapeCasts_S128x256_S1x128x256 : S128x256.ShapeCasts S1x128x256
  broadcasts_S16x1x256_S16x128x256 : S16x1x256.Broadcasts S16x128x256
  broadcasts_S1x128x256_S16x128x256 : S1x128x256.Broadcasts S16x128x256
  broadcasts_S1x1x256_S16x128x256 : S1x1x256.Broadcasts S16x128x256
  reduces_S16x128x256_S16x128 : S16x128x256.Reduces [2] S16x128
  inb_S1x128x128_S1x16x128_0_0_0 : ∀ a, (![0, 0, 0] : Fin 3 → Nat) a + S1x16x128.size a ≤ S1x128x128.size a
  h_S1x16x128 : 0 < S1x16x128.numel
  shapeCasts_S1x16x128_S16x128 : S1x16x128.ShapeCasts S16x128
  shapeCasts_S16x128_S1x16x128 : S16x128.ShapeCasts S1x16x128
  slices_S128x256_o16_0_S16x256 : S128x256.Slices ![16, 0] S16x256
  inb_S1x128x128_S1x16x128_0_16_0 : ∀ a, (![0, 16, 0] : Fin 3 → Nat) a + S1x16x128.size a ≤ S1x128x128.size a
  slices_S128x256_o32_0_S16x256 : S128x256.Slices ![32, 0] S16x256
  inb_S1x128x128_S1x16x128_0_32_0 : ∀ a, (![0, 32, 0] : Fin 3 → Nat) a + S1x16x128.size a ≤ S1x128x128.size a
  slices_S128x256_o48_0_S16x256 : S128x256.Slices ![48, 0] S16x256
  inb_S1x128x128_S1x16x128_0_48_0 : ∀ a, (![0, 48, 0] : Fin 3 → Nat) a + S1x16x128.size a ≤ S1x128x128.size a
  slices_S128x256_o64_0_S16x256 : S128x256.Slices ![64, 0] S16x256
  inb_S1x128x128_S1x16x128_0_64_0 : ∀ a, (![0, 64, 0] : Fin 3 → Nat) a + S1x16x128.size a ≤ S1x128x128.size a
  slices_S128x256_o80_0_S16x256 : S128x256.Slices ![80, 0] S16x256
  inb_S1x128x128_S1x16x128_0_80_0 : ∀ a, (![0, 80, 0] : Fin 3 → Nat) a + S1x16x128.size a ≤ S1x128x128.size a
  slices_S128x256_o96_0_S16x256 : S128x256.Slices ![96, 0] S16x256
  inb_S1x128x128_S1x16x128_0_96_0 : ∀ a, (![0, 96, 0] : Fin 3 → Nat) a + S1x16x128.size a ≤ S1x128x128.size a
  slices_S128x256_o112_0_S16x256 : S128x256.Slices ![112, 0] S16x256
  inb_S1x128x128_S1x16x128_0_112_0 : ∀ a, (![0, 112, 0] : Fin 3 → Nat) a + S1x16x128.size a ≤ S1x128x128.size a
  bcast_S127_S1x127_1 : S127.BroadcastsInDim S1x127 (![1] : Fin 1 → Fin S1x127.rank)
  bcast_S128_S128x1_0 : S128.BroadcastsInDim S128x1 (![0] : Fin 1 → Fin S128x1.rank)
  bcast_S1x127_S128x127_0_1 : S1x127.BroadcastsInDim S128x127 (![0, 1] : Fin 2 → Fin S128x127.rank)
  bcast_S128x1_S128x127_0_1 : S128x1.BroadcastsInDim S128x127 (![0, 1] : Fin 2 → Fin S128x127.rank)
  natLt_1_32 : 1 < 32
  bcast_S128x127_S1x128x127_1_2 : S128x127.BroadcastsInDim S1x128x127 (![1, 2] : Fin 2 → Fin S1x128x127.rank)
  bcast_S1x128x127_S16x128x127_0_1_2 : S1x128x127.BroadcastsInDim S16x128x127 (![0, 1, 2] : Fin 3 → Fin S16x128x127.rank)
  bcast_S_S16x128x127 : S_.BroadcastsInDim S16x128x127 (![] : Fin 0 → Fin S16x128x127.rank)
  shapeCasts_S16x128x127_S16x128x127x1 : S16x128x127.ShapeCasts S16x128x127x1
  bcast_S_S16x128x127x1 : S_.BroadcastsInDim S16x128x127x1 (![] : Fin 0 → Fin S16x128x127x1.rank)
  bcast_S1_S1x1x1x1_3 : S1.BroadcastsInDim S1x1x1x1 (![3] : Fin 1 → Fin S1x1x1x1.rank)
  bcast_S1x1x1x1_S16x128x127x1_0_1_2_3 : S1x1x1x1.BroadcastsInDim S16x128x127x1 (![0, 1, 2, 3] : Fin 4 → Fin S16x128x127x1.rank)
  reducesTo_S16x128x127x1_S16x128x127_d3 : S16x128x127x1.ReducesTo [3] S16x128x127
  h_S_ : 0 < S_.numel
  dot_S128x64_S64x256_S128x256_1_0_0_1_n_n_wf : DotDims.WF S128x64 S64x256 S128x256 [1] [0] [0] [1] [] []
  gather_S16x128x128_S16x128x127x1_S16x128x127_n_2_01_01_2_3_111_wf : GatherDims.WF S16x128x128 S16x128x127x1 S16x128x127 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S16x128x64.size a
  hwx0_0 : ∀ i : grid0.Coords, EltTy.bits .f32 = 32 ∨ (Rect.block (s := S16x128x64) S1x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S16x128x128.size a
  hwx0_6 : ∀ i : grid0.Coords, EltTy.bits .f32 = 32 ∨ (Rect.block (s := S16x128x128) S1x128x128.size (cc0_transform_6 i) (hinb0_6 i)).WholeWords (EltTy.packing .f32)

variable [Facts₀]

def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf
def gather_S16x128x128_S16x128x127x1_S16x128x127_n_2_01_01_2_3_111 : GatherDims S16x128x128 S16x128x127x1 S16x128x127 where
  offsetDims := []
  collapsedSliceDims := [2]
  operandBatchingDims := [0, 1]
  startIndicesBatchingDims := [0, 1]
  startIndexMap := [2]
  indexVectorDim := 3
  sliceSizes := ![1, 1, 1]
  wf := gather_S16x128x128_S16x128x127x1_S16x128x127_n_2_01_01_2_3_111_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x128x64 : Shape := ⟨3, ![16, 128, 64]⟩
abbrev S16x128x8 : Shape := ⟨3, ![16, 128, 8]⟩
abbrev S128x256 : Shape := ⟨2, ![128, 256]⟩
abbrev S256 : Shape := ⟨1, ![256]⟩
abbrev S256x1 : Shape := ⟨2, ![256, 1]⟩
abbrev S1 : Shape := ⟨1, ![1]⟩
abbrev S2048x64 : Shape := ⟨2, ![2048, 64]⟩
abbrev S127 : Shape := ⟨1, ![127]⟩
abbrev S128 : Shape := ⟨1, ![128]⟩
abbrev S1x127 : Shape := ⟨2, ![1, 127]⟩
abbrev S128x1 : Shape := ⟨2, ![128, 1]⟩
abbrev S128x127 : Shape := ⟨2, ![128, 127]⟩
abbrev S16256 : Shape := ⟨1, ![16256]⟩
abbrev S16 : Shape := ⟨1, ![16]⟩
abbrev S_ : Shape := ⟨0, ![]⟩
abbrev S16x1 : Shape := ⟨2, ![16, 1]⟩
abbrev S1x16256 : Shape := ⟨2, ![1, 16256]⟩
abbrev S16x16256 : Shape := ⟨2, ![16, 16256]⟩
abbrev S260096 : Shape := ⟨1, ![260096]⟩
abbrev S260096x1 : Shape := ⟨2, ![260096, 1]⟩
abbrev S260096x64 : Shape := ⟨2, ![260096, 64]⟩
abbrev S260096x128 : Shape := ⟨2, ![260096, 128]⟩
abbrev S260096x256 : Shape := ⟨2, ![260096, 256]⟩
abbrev S1x256 : Shape := ⟨2, ![1, 256]⟩
abbrev S1x1 : Shape := ⟨2, ![1, 1]⟩
abbrev S16x128x127 : Shape := ⟨3, ![16, 128, 127]⟩

abbrev nBuf : Space → Nat
  | .hbm => 67
  | .vmem => 0
  | .smem => 0
  | _ => 0

abbrev bufTy : (tb : Table) → Fin (tcTables nBuf tb) → BufTy
  | .hbm, ⟨0, _⟩ => ⟨S16x128x64, .f32⟩
  | .hbm, ⟨1, _⟩ => ⟨S16x128x8, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S2048x64, .f32⟩
  | .hbm, ⟨7, _⟩ => ⟨S127, .i32⟩
  | .hbm, ⟨8, _⟩ => ⟨S128, .i32⟩
  | .hbm, ⟨9, _⟩ => ⟨S1x127, .i32⟩
  | .hbm, ⟨10, _⟩ => ⟨S1x127, .i32⟩
  | .hbm, ⟨11, _⟩ => ⟨S128x1, .i32⟩
  | .hbm, ⟨12, _⟩ => ⟨S128x127, .i32⟩
  | .hbm, ⟨13, _⟩ => ⟨S128x127, .i32⟩
  | .hbm, ⟨14, _⟩ => ⟨S128x127, .i1⟩
  | .hbm, ⟨15, _⟩ => ⟨S128x127, .i32⟩
  | .hbm, ⟨16, _⟩ => ⟨S128x127, .i32⟩
  | .hbm, ⟨17, _⟩ => ⟨S128x127, .i32⟩
  | .hbm, ⟨18, _⟩ => ⟨S16256, .i32⟩
  | .hbm, ⟨19, _⟩ => ⟨S128x127, .i32⟩
  | .hbm, ⟨20, _⟩ => ⟨S16256, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S1x16256, .i32⟩
  | .hbm, ⟨27, _⟩ => ⟨S16x16256, .i32⟩
  | .hbm, ⟨28, _⟩ => ⟨S16x16256, .i32⟩
  | .hbm, ⟨29, _⟩ => ⟨S16x16256, .i32⟩
  | .hbm, ⟨30, _⟩ => ⟨S260096, .i32⟩
  | .hbm, ⟨31, _⟩ => ⟨S1x16256, .i32⟩
  | .hbm, ⟨32, _⟩ => ⟨S16x16256, .i32⟩
  | .hbm, ⟨33, _⟩ => ⟨S16x16256, .i32⟩
  | .hbm, ⟨34, _⟩ => ⟨S16x16256, .i32⟩
  | .hbm, ⟨35, _⟩ => ⟨S260096, .i32⟩
  | .hbm, ⟨36, _⟩ => ⟨S_, .i32⟩
  | .hbm, ⟨37, _⟩ => ⟨S260096, .i32⟩
  | .hbm, ⟨38, _⟩ => ⟨S260096, .i1⟩
  | .hbm, ⟨39, _⟩ => ⟨S_, .i32⟩
  | .hbm, ⟨40, _⟩ => ⟨S260096, .i32⟩
  | .hbm, ⟨41, _⟩ => ⟨S260096, .i32⟩
  | .hbm, ⟨42, _⟩ => ⟨S260096, .i32⟩
  | .hbm, ⟨43, _⟩ => ⟨S260096x1, .i32⟩
  | .hbm, ⟨44, _⟩ => ⟨S260096x64, .f32⟩
  | .hbm, ⟨45, _⟩ => ⟨S_, .i32⟩
  | .hbm, ⟨46, _⟩ => ⟨S260096, .i32⟩
  | .hbm, ⟨47, _⟩ => ⟨S260096, .i1⟩
  | .hbm, ⟨48, _⟩ => ⟨S_, .i32⟩
  | .hbm, ⟨49, _⟩ => ⟨S260096, .i32⟩
  | .hbm, ⟨50, _⟩ => ⟨S260096, .i32⟩
  | .hbm, ⟨51, _⟩ => ⟨S260096, .i32⟩
  | .hbm, ⟨52, _⟩ => ⟨S260096x1, .i32⟩
  | .hbm, ⟨53, _⟩ => ⟨S260096x64, .f32⟩
  | .hbm, ⟨54, _⟩ => ⟨S260096x128, .f32⟩
  | .hbm, ⟨55, _⟩ => ⟨S260096x256, .f32⟩
  | .hbm, ⟨56, _⟩ => ⟨S1x256, .f32⟩
  | .hbm, ⟨57, _⟩ => ⟨S260096x256, .f32⟩
  | .hbm, ⟨58, _⟩ => ⟨S260096x256, .f32⟩
  | .hbm, ⟨59, _⟩ => ⟨S_, .f32⟩
  | .hbm, ⟨60, _⟩ => ⟨S260096x256, .f32⟩
  | .hbm, ⟨61, _⟩ => ⟨S260096x256, .f32⟩
  | .hbm, ⟨62, _⟩ => ⟨S260096x1, .f32⟩
  | .hbm, ⟨63, _⟩ => ⟨S1x1, .f32⟩
  | .hbm, ⟨64, _⟩ => ⟨S260096x1, .f32⟩
  | .hbm, ⟨65, _⟩ => ⟨S260096x1, .f32⟩
  | .hbm, ⟨66, _⟩ => ⟨S16x128x127, .f32⟩
  | _, _ => ⟨S16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_0 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_cst : Ref sig .tc := ⟨.hbm, 59, rfl⟩
abbrev main_call0_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  shapeCasts_S16x128x64_S2048x64 : S16x128x64.ShapeCasts S2048x64
  bcast_S127_S1x127_1 : S127.BroadcastsInDim S1x127 (![1] : Fin 1 → Fin S1x127.rank)
  bcast_S128_S128x1_0 : S128.BroadcastsInDim S128x1 (![0] : Fin 1 → Fin S128x1.rank)
  bcast_S1x127_S128x127_0_1 : S1x127.BroadcastsInDim S128x127 (![0, 1] : Fin 2 → Fin S128x127.rank)
  bcast_S128x1_S128x127_0_1 : S128x1.BroadcastsInDim S128x127 (![0, 1] : Fin 2 → Fin S128x127.rank)
  natLt_1_32 : 1 < 32
  shapeCasts_S128x127_S16256 : S128x127.ShapeCasts S16256
  bcast_S128_S128x127_0 : S128.BroadcastsInDim S128x127 (![0] : Fin 1 → Fin S128x127.rank)
  bcast_S_S16 : S_.BroadcastsInDim S16 (![] : Fin 0 → Fin S16.rank)
  bcast_S16_S16x1_0 : S16.BroadcastsInDim S16x1 (![0] : Fin 1 → Fin S16x1.rank)
  bcast_S16256_S1x16256_1 : S16256.BroadcastsInDim S1x16256 (![1] : Fin 1 → Fin S1x16256.rank)
  bcast_S1x16256_S16x16256_0_1 : S1x16256.BroadcastsInDim S16x16256 (![0, 1] : Fin 2 → Fin S16x16256.rank)
  bcast_S16x1_S16x16256_0_1 : S16x1.BroadcastsInDim S16x16256 (![0, 1] : Fin 2 → Fin S16x16256.rank)
  shapeCasts_S16x16256_S260096 : S16x16256.ShapeCasts S260096
  bcast_S_S260096 : S_.BroadcastsInDim S260096 (![] : Fin 0 → Fin S260096.rank)
  bcast_S260096_S260096x1_0 : S260096.BroadcastsInDim S260096x1 (![0] : Fin 1 → Fin S260096x1.rank)
  concatenates_S260096x64_S260096x64_S260096x128_d1 : Shape.Concatenates [S260096x64, S260096x64] S260096x128 1
  bcast_S256_S1x256_1 : S256.BroadcastsInDim S1x256 (![1] : Fin 1 → Fin S1x256.rank)
  bcast_S1x256_S260096x256_0_1 : S1x256.BroadcastsInDim S260096x256 (![0, 1] : Fin 2 → Fin S260096x256.rank)
  bcast_S_S260096x256 : S_.BroadcastsInDim S260096x256 (![] : Fin 0 → Fin S260096x256.rank)
  bcast_S1_S1x1_1 : S1.BroadcastsInDim S1x1 (![1] : Fin 1 → Fin S1x1.rank)
  bcast_S1x1_S260096x1_0_1 : S1x1.BroadcastsInDim S260096x1 (![0, 1] : Fin 2 → Fin S260096x1.rank)
  shapeCasts_S260096x1_S16x128x127 : S260096x1.ShapeCasts S16x128x127
  gather_S2048x64_S260096x1_S260096x64_1_0_n_n_0_1_164_wf : GatherDims.WF S2048x64 S260096x1 S260096x64 [1] [0] [] [0] [] 1 ![1, 64]
  dot_S260096x128_S128x256_S260096x256_1_0_0_1_n_n_wf : DotDims.WF S260096x128 S128x256 S260096x256 [1] [0] [0] [1] [] []
  dot_S260096x256_S256x1_S260096x1_1_0_0_1_n_n_wf : DotDims.WF S260096x256 S256x1 S260096x1 [1] [0] [0] [1] [] []

variable [Facts₀]

def gather_S2048x64_S260096x1_S260096x64_1_0_n_n_0_1_164 : GatherDims S2048x64 S260096x1 S260096x64 where
  offsetDims := [1]
  collapsedSliceDims := [0]
  operandBatchingDims := []
  startIndicesBatchingDims := []
  startIndexMap := [0]
  indexVectorDim := 1
  sliceSizes := ![1, 64]
  wf := gather_S2048x64_S260096x1_S260096x64_1_0_n_n_0_1_164_wf
def dot_S260096x128_S128x256_S260096x256_1_0_0_1_n_n : DotDims S260096x128 S128x256 S260096x256 where
  lhsContracting := [1]
  rhsContracting := [0]
  lhsNonContracting := [0]
  rhsNonContracting := [1]
  lhsBatch := []
  rhsBatch := []
  wf := dot_S260096x128_S128x256_S260096x256_1_0_0_1_n_n_wf
def dot_S260096x256_S256x1_S260096x1_1_0_0_1_n_n : DotDims S260096x256 S256x1 S260096x1 where
  lhsContracting := [1]
  rhsContracting := [0]
  lhsNonContracting := [0]
  rhsNonContracting := [1]
  lhsBatch := []
  rhsBatch := []
  wf := dot_S260096x256_S256x1_S260096x1_1_0_0_1_n_n_wf

class Facts : Prop extends Facts₀ where

variable [Facts]
-- ==== Proof.KernelTile.lean ====
/-
  One 16-row tile of the kernel's body, read at an index on the extended reals.

  A tile's stored value is built from four pieces the body has already formed: the scalar `b2`, the row of `W2` as a
  [1, 1, 256] vector `w`, sixteen rows of the first node's share `a` as a [16, 1, 256] vector, and the second node's
  share with the bias, `b + b1`, as a [1, 128, 256] vector. It broadcasts the two shares against each other, adds them,
  takes the maximum with zero, multiplies by `w`, sums over the 256 lanes and adds `b2`. So entry (r, j) of the tile is
      ∑_{h < 256} max(a[r, h] + (b + b1)[j, h], 0) · w[h]  +  b2.
  Format changes are the identity here, and the lane sum starts from the neutral word, so it is the plain sum.
-/
import proofs.«175090_j39195871543399_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelTile

open Idealize.ShloMosaic Idealize.ShloMosaic.ValueIdx Cert.KernelIdeal Cert.KernelIdeal.Gen

/-- The bf16 zero word denotes the extended real `0`. -/
theorem ofBits_zero_bf16 : Ideal.ofBits .bf16 0x0000#16 = 0 := by simp [Ideal.ofBits, Ideal.ieee]

/-- Inserting lane `k` into the reduced index (r, j) gives (r, j, k). -/
theorem lift_lane (h : S16x128x256.Reduces [2] S16x128) (r : Fin 16) (j : Fin 128) (k : Fin 256) :
    h.lift (ix2 r j) k = ix3 r j k := by
  funext c
  apply Fin.ext
  match c with
  | ⟨0, _⟩ => rfl
  | ⟨1, _⟩ => rfl
  | ⟨2, _⟩ => rfl

/-- Entry (r, j) of a tile: the lane sum of the rectified sums of the two shares against `w`, plus `b2`. -/
theorem tile_apply (b2 : Ideal .f32) (w : FVec Ideal S1x1x256 .bf16) (aT : FVec Ideal S16x1x256 .bf16)
    (bb : FVec Ideal S1x128x256 .bf16) (r : Fin 16) (j : Fin 128) :
    k0_pay1 (F := Ideal) b2 w aT bb (ix3 (0 : Fin 1) r j)
      = (∑ h : Fin 256, max (aT (ix3 r (0 : Fin 1) h) + bb (ix3 (0 : Fin 1) j h)) 0 * w (ix3 (0 : Fin 1) (0 : Fin 1) h)) + b2 := by
  unfold k0_pay1
  refine (shapeCast_addUnit_apply _ _ _ (ix3 (0 : Fin 1) r j)).trans ?_
  have hix : (fun a : Fin 2 => (ix3 (0 : Fin 1) r j) a.succ) = ix2 r j := by
    funext a
    match a with
    | ⟨0, _⟩ => rfl
    | ⟨1, _⟩ => rfl
  rw [hix]
  show (multiReduction .add [2] S16x128 _ 0x00000000#32 reduces_S16x128x256_S16x128 _ _ (ix2 r j)) + b2 = _
  congr 1
  refine (Ideal.multiReduction_add_single _ _ _ _ _ (ix2 r j)).trans ?_
  refine Finset.sum_congr rfl fun (k : Fin 256) _ => ?_
  rw [lift_lane]
  show max (broadcastTo S16x128x256 aT broadcasts_S16x1x256_S16x128x256 (ix3 r j k)
        + broadcastTo S16x128x256 bb broadcasts_S1x128x256_S16x128x256 (ix3 r j k)) (Ideal.ofBits .bf16 0x0000#16)
      * broadcastTo S16x128x256 w broadcasts_S1x1x256_S16x128x256 (ix3 r j k) = _
  rw [broadcastTo_apply aT _ (ix3 r j k) (ix3 r (0 : Fin 1) k)
        (by intro a; match a with | ⟨0, _⟩ => rfl | ⟨1, _⟩ => rfl | ⟨2, _⟩ => rfl),
      broadcastTo_apply bb _ (ix3 r j k) (ix3 (0 : Fin 1) j k)
        (by intro a; match a with | ⟨0, _⟩ => rfl | ⟨1, _⟩ => rfl | ⟨2, _⟩ => rfl),
      broadcastTo_apply w _ (ix3 r j k) (ix3 (0 : Fin 1) (0 : Fin 1) k)
        (by intro a; match a with | ⟨0, _⟩ => rfl | ⟨1, _⟩ => rfl | ⟨2, _⟩ => rfl),
      ofBits_zero_bf16]

end Cert.KernelTile

end
-- ==== Proof.KernelShares.lean ====
/-
  What the body forms before its tiles, read at an index on the extended reals, in terms of the blocks it loaded:
  the block `x` of `states` (one time step, [1, 128, 64]), the two halves of `W1` ([64, 256] each), `b1` as a row
  [1, 256], `W2` transposed to a row [1, 256], and `b2` as [1, 1].

    first share   a[i, h]      = ∑_{d < 64} x[0, i, d] · W1top[d, h]
    second share  (b + b1)[j, h] = ∑_{d < 64} x[0, j, d] · W1bot[d, h] + b1[0, h]
    the row of W2 w[0, 0, h]   = W2row[0, h]
    the scalar    b2           = b2blk[0, 0]

  A matrix product into a zero accumulator is the plain contraction; the contraction index of the product's record is
  re-indexed by its one coordinate.
-/
import proofs.«175090_j39195871543399_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelShares

open Idealize.ShloMosaic Idealize.ShloMosaic.ValueIdx Cert.KernelIdeal Cert.KernelIdeal.Gen

local notation "D₁" => dot_S128x64_S64x256_S128x256_1_0_0_1_n_n

/-! ## The product [128, 64] × [64, 256] at an index -/

theorem lhs_row (i : S128x256.Idx) (q : (D₁).contr.Idx) : ((D₁).lhsIdx i q 0).val = (i 0).val := by
  unfold DotDims.lhsIdx
  rw [dif_neg (show ¬(0 : Fin S128x64.rank) ∈ (D₁).lhsBatch by decide),
    dif_pos (show (0 : Fin S128x64.rank) ∈ (D₁).lhsNonContracting by decide)]
  rfl

theorem lhs_contr (i : S128x256.Idx) (q : (D₁).contr.Idx) : ((D₁).lhsIdx i q 1).val = (q ⟨0, by decide⟩).val :=
  (D₁).lhsIdx_val_of_single rfl i q

theorem rhs_contr (i : S128x256.Idx) (q : (D₁).contr.Idx) : ((D₁).rhsIdx i q 0).val = (q ⟨0, by decide⟩).val :=
  (D₁).rhsIdx_val_of_single rfl i q

theorem rhs_col (i : S128x256.Idx) (q : (D₁).contr.Idx) : ((D₁).rhsIdx i q 1).val = (i 1).val := by
  unfold DotDims.rhsIdx
  rw [dif_neg (show ¬(1 : Fin S64x256.rank) ∈ (D₁).rhsBatch by decide),
    dif_pos (show (1 : Fin S64x256.rank) ∈ (D₁).rhsNonContracting by decide)]
  rfl

/-- The product into a zero accumulator, at (i, h): the sum over the 64 contracted coordinates. -/
theorem product_apply {φ₁ φ₂ : FTy} (l : FVec Ideal S128x64 φ₁) (r : FVec Ideal S64x256 φ₂) (i : Fin 128) (h : Fin 256) :
    matmul D₁ none l r (constant S128x256 .f32 0x00000000#32) (ix2 i h) = ∑ d : Fin 64, l (ix2 i d) * r (ix2 d h) := by
  refine (Ideal.matmul_constant_zero_apply D₁ none l r (ix2 i h)).trans ?_
  rw [← Equiv.sum_comp (contrEquiv1 D₁ 64 rfl rfl).symm]
  refine Finset.sum_congr rfl fun d _ => ?_
  have hd := contrEquiv1_symm_val D₁ 64 rfl rfl d
  have el : (D₁).lhsIdx (ix2 i h) ((contrEquiv1 D₁ 64 rfl rfl).symm d) = ix2 i d := funext fun a => Fin.ext (by
    match a with
    | ⟨0, _⟩ => exact lhs_row _ _
    | ⟨1, _⟩ => exact (lhs_contr _ _).trans hd)
  have er : (D₁).rhsIdx (ix2 i h) ((contrEquiv1 D₁ 64 rfl rfl).symm d) = ix2 d h := funext fun a => Fin.ext (by
    match a with
    | ⟨0, _⟩ => exact (rhs_contr _ _).trans hd
    | ⟨1, _⟩ => exact rhs_col _ _)
  rw [el, er]

/-! ## Reshapes that drop or add a leading unit axis, at explicit coordinates -/

/-- [1, n₁, n₂] read as [n₁, n₂]: entry (i, d) is entry (0, i, d). -/
theorem dropLead {α : Type} {n₁ n₂ : Nat} (v : (⟨3, ![1, n₁, n₂]⟩ : Shape).Idx → α)
    (hc : (⟨3, ![1, n₁, n₂]⟩ : Shape).ShapeCasts ⟨2, ![n₁, n₂]⟩) (i : Fin n₁) (d : Fin n₂) :
    shapeCast ⟨2, ![n₁, n₂]⟩ v hc (ix2 i d) = v (ix3 (0 : Fin 1) i d) :=
  (shapeCast_dropUnit_apply _ v hc (ix2 i d)).trans (congrArg v (funext fun a => by
    match a with
    | ⟨0, _⟩ => rfl
    | ⟨1, _⟩ => rfl
    | ⟨2, _⟩ => rfl))

/-- [n₁, n₂] read as [1, n₁, n₂]: entry (0, i, d) is entry (i, d). -/
theorem addLead {α : Type} {n₁ n₂ : Nat} (v : (⟨2, ![n₁, n₂]⟩ : Shape).Idx → α)
    (hc : (⟨2, ![n₁, n₂]⟩ : Shape).ShapeCasts ⟨3, ![1, n₁, n₂]⟩) (i : Fin n₁) (d : Fin n₂) :
    shapeCast ⟨3, ![1, n₁, n₂]⟩ v hc (ix3 (0 : Fin 1) i d) = v (ix2 i d) :=
  (shapeCast_addUnit_apply _ v hc (ix3 (0 : Fin 1) i d)).trans (congrArg v (funext fun a => by
    match a with
    | ⟨0, _⟩ => rfl
    | ⟨1, _⟩ => rfl))

/-! ## The four values the tiles are built from -/

/-- The first node's share at (i, h): row `i` of the block against column `h` of the upper half of `W1`. -/
theorem firstShare_apply (v0 : Vec Ideal S1x128x64 .f32) (v3 : Vec Ideal S64x256 .f32) (i : Fin 128) (h : Fin 256) :
    k0_pay5 (F := Ideal) v0 v3 (ix2 i h) = ∑ d : Fin 64, v0 (ix3 (0 : Fin 1) i d) * v3 (ix2 d h) := by
  unfold k0_pay5 k0_pay3
  refine (product_apply _ _ i h).trans ?_
  refine Finset.sum_congr rfl fun d _ => ?_
  show shapeCast S128x64 v0 shapeCasts_S1x128x64_S128x64 (ix2 i d) * shapeCast S64x256 v3 shapeCasts_S64x256_S64x256 (ix2 d h) = _
  rw [dropLead v0 _ i d, shapeCast_self]

/-- The second node's share with the bias at (j, h): row `j` of the block against column `h` of the lower half of `W1`,
    plus `b1[h]`. -/
theorem secondShare_apply (v0 : Vec Ideal S1x128x64 .f32) (v6 : Vec Ideal S64x256 .f32) (v11 : Vec Ideal S1x256 .f32)
    (j : Fin 128) (h : Fin 256) :
    k0_pay6 (F := Ideal) v0 v6 v11 (ix2 j h)
      = (∑ d : Fin 64, v0 (ix3 (0 : Fin 1) j d) * v6 (ix2 d h)) + v11 (ix2 (0 : Fin 1) h) := by
  unfold k0_pay6 k0_pay3
  show matmul (F := Ideal) D₁ none _ _ (constant (F := Ideal) S128x256 .f32 0x00000000#32) (ix2 j h)
      + broadcastTo S128x256 (shapeCast S1x256 v11 shapeCasts_S1x256_S1x256) broadcasts_S1x256_S128x256 (ix2 j h) = _
  congr 1
  · refine (product_apply _ _ j h).trans ?_
    refine Finset.sum_congr rfl fun d _ => ?_
    show shapeCast S128x64 v0 shapeCasts_S1x128x64_S128x64 (ix2 j d) * shapeCast S64x256 v6 shapeCasts_S64x256_S64x256 (ix2 d h) = _
    rw [dropLead v0 _ j d, shapeCast_self]
  · rw [shapeCast_self]
    exact broadcastTo_apply v11 _ (ix2 j h) (ix2 (0 : Fin 1) h) (by
      intro a
      match a with
      | ⟨0, _⟩ => rfl
      | ⟨1, _⟩ => rfl)

/-- The row of `W2` as the tiles see it: entry (0, 0, h) is entry (0, h) of the loaded row. -/
theorem w2row_apply (v13 : Vec Ideal S1x256 .f32) (h : Fin 256) :
    k0_pay7 (F := Ideal) v13 (ix3 (0 : Fin 1) (0 : Fin 1) h) = v13 (ix2 (0 : Fin 1) h) := by
  unfold k0_pay7
  refine (addLead _ _ (0 : Fin 1) h).trans ?_
  show shapeCast S1x256 v13 shapeCasts_S1x256_S1x256 (ix2 (0 : Fin 1) h) = _
  rw [shapeCast_self]

/-- The scalar `b2` is the one entry of its block. -/
theorem b2_eq (v15 : Vec Ideal S1x1 .f32) : k0_pay4 (F := Ideal) v15 = v15 (ix2 (0 : Fin 1) (0 : Fin 1)) := by
  unfold k0_pay4 extractAt
  exact congrArg v15 (funext fun a => by
    match a with
    | ⟨0, _⟩ => rfl
    | ⟨1, _⟩ => rfl)

end Cert.KernelShares

end
-- ==== Proof.EdgeSpec.lean ====
/-
  The edge scores of a fully connected graph on 128 nodes, for each of 16 time steps, as one function of the
  argument arrays on the extended reals.

  For an ordered pair of nodes (i, j) at time t, with x = states[t], the first layer's pre-activation at hidden
  unit h is
      a(i, h) + (b(j, h) + b1[h]),   a(i, h) = ∑_{d < 64} x[i, d] · W1[d, h],   b(j, h) = ∑_{d < 64} x[j, d] · W1[64 + d, h]
  — the product of the concatenated row (x[i], x[j]) with W1, split at the joint —, the pair's score is
      ∑_{h < 256} max(pre-activation, 0) · W2[h, 0] + b2[0],
  and the result lists, for each node i, the scores of the pairs (i, j) with j ≠ i in increasing j: entry k of row i is
  the pair (i, k) when k < i and (i, k + 1) otherwise.
-/
import Idealize.ShloMosaic.PureOps.Ideal
import Idealize.ShloMosaic.Lib.ValueIdx

noncomputable section

namespace Cert.EdgeSpec

open Idealize.ShloMosaic Idealize.ShloMosaic.ValueIdx

/-- The array shapes of the arguments and of the two results, spelt as literals. -/
abbrev TStates : Shape := ⟨3, ![16, 128, 64]⟩
abbrev TW1 : Shape := ⟨2, ![128, 256]⟩
abbrev TB1 : Shape := ⟨1, ![256]⟩
abbrev TW2 : Shape := ⟨2, ![256, 1]⟩
abbrev TB2 : Shape := ⟨1, ![1]⟩
abbrev TFull : Shape := ⟨3, ![16, 128, 128]⟩
abbrev TEdges : Shape := ⟨3, ![16, 128, 127]⟩

/-- Row `d` of the upper half of `W1` (the rows that meet the first node of a pair). -/
abbrev top (d : Fin 64) : Fin 128 := ⟨d.val, by omega⟩
/-- Row `64 + d` of `W1`: the lower half (the rows that meet the second node of a pair). -/
abbrev bot (d : Fin 64) : Fin 128 := ⟨64 + d.val, by omega⟩

/-- The `k`-th node other than `i`, in increasing order: `k` below `i`, `k + 1` from `i` on. -/
def neighbour (i : Fin 128) (k : Fin 127) : Fin 128 :=
  ⟨k.val + (if i.val ≤ k.val then 1 else 0), by split <;> omega⟩

theorem neighbour_val (i : Fin 128) (k : Fin 127) :
    (neighbour i k).val = k.val + (if i.val ≤ k.val then 1 else 0) := rfl

/-- A neighbour is never the node itself. -/
theorem neighbour_ne (i : Fin 128) (k : Fin 127) : neighbour i k ≠ i := by
  intro h
  have := congrArg Fin.val h
  rw [neighbour_val] at this
  split at this <;> omega

variable (X : TStates.Idx → EReal) (W1 : TW1.Idx → EReal) (b1 : TB1.Idx → EReal) (W2 : TW2.Idx → EReal)
  (b2 : TB2.Idx → EReal)

/-- The first node's share of the pre-activation: row `i` of `states[t]` against the upper half of `W1`. -/
def fromFirst (t : Fin 16) (i : Fin 128) (h : Fin 256) : EReal :=
  ∑ d : Fin 64, X (ix3 t i d) * W1 (ix2 (top d) h)

/-- The second node's share, bias included: row `j` of `states[t]` against the lower half of `W1`, plus `b1`. -/
def fromSecond (t : Fin 16) (j : Fin 128) (h : Fin 256) : EReal :=
  (∑ d : Fin 64, X (ix3 t j d) * W1 (ix2 (bot d) h)) + b1 (ix1 h)

/-- The score of the ordered pair `(i, j)` at time `t`. -/
def score (t : Fin 16) (i j : Fin 128) : EReal :=
  (∑ h : Fin 256, max (fromFirst X W1 t i h + fromSecond X W1 b1 t j h) 0 * W2 (ix2 h (0 : Fin 1))) + b2 (ix1 (0 : Fin 1))

/-- Every pair's score, the diagonal included: the array of shape [16, 128, 128]. -/
def full : TFull.Idx → EReal := fun y => score X W1 b1 W2 b2 (y 0) (y 1) (y 2)

/-- The scores of the pairs of distinct nodes: the array of shape [16, 128, 127]. -/
def edges : TEdges.Idx → EReal := fun y => score X W1 b1 W2 b2 (y 0) (y 1) (neighbour (y 1) (y 2))

theorem full_ix3 (t : Fin 16) (i j : Fin 128) : full X W1 b1 W2 b2 (ix3 t i j) = score X W1 b1 W2 b2 t i j := rfl

theorem edges_ix3 (t : Fin 16) (i : Fin 128) (k : Fin 127) :
    edges X W1 b1 W2 b2 (ix3 t i k) = score X W1 b1 W2 b2 t i (neighbour i k) := rfl

/-- An edge entry is the full array's entry in the neighbour's column. -/
theorem edges_eq_full (y : TEdges.Idx) :
    edges X W1 b1 W2 b2 y = full X W1 b1 W2 b2 (ix3 (y 0) (y 1) (neighbour (y 1) (y 2))) := rfl

end Cert.EdgeSpec

end
-- ==== Proof.KernelBlock.lean ====
/-
  What one grid point leaves in its output block, as one function of the blocks it loaded.

  With `x` the point's block of `states` ([1, 128, 64]), the two halves of `W1`, `b1` and `W2` as rows and `b2` as a
  [1, 1] block, entry (0, i, j) of the [1, 128, 128] output block is the score of the ordered pair (i, j):
      ∑_{h < 256} max( ∑_d x[0,i,d]·W1top[d,h] + ( ∑_d x[0,j,d]·W1bot[d,h] + b1[0,h] ), 0 ) · W2row[0,h]  +  b2[0,0].
  The body stores the block as eight tiles of sixteen rows; tile number n holds rows 16 n … 16 n + 15 and is the same
  arithmetic applied to rows 16 n … of the first share, so every tile agrees with the one function above, and the
  tiles cover the block.
-/
import proofs.«175090_j39195871543399_2_alg».proof.Proof.Gen.KernelIdeal.Frame
import proofs.«175090_j39195871543399_2_alg».proof.Proof.KernelTile
import proofs.«175090_j39195871543399_2_alg».proof.Proof.KernelShares
import proofs.«175090_j39195871543399_2_alg».proof.Proof.EdgeSpec

noncomputable section

namespace Cert.KernelBlock

open Idealize.ShloMosaic Idealize.ShloMosaic.ValueIdx Cert.KernelIdeal Cert.KernelIdeal.Gen

variable (x0 : Vec Ideal S1x128x64 .f32) (x1 x2 : Vec Ideal S64x256 .f32) (x3 x4 : Vec Ideal S1x256 .f32)
  (x5 : Vec Ideal S1x1 .f32)

/-- The score of the ordered pair (i, j) from the loaded blocks. -/
def blockScore (i j : Fin 128) : EReal :=
  (∑ h : Fin 256,
      max ((∑ d : Fin 64, x0 (ix3 (0 : Fin 1) i d) * x1 (ix2 d h))
          + ((∑ d : Fin 64, x0 (ix3 (0 : Fin 1) j d) * x2 (ix2 d h)) + x3 (ix2 (0 : Fin 1) h))) 0
        * x4 (ix2 (0 : Fin 1) h))
    + x5 (ix2 (0 : Fin 1) (0 : Fin 1))

/-- The output block as one function of its index. -/
def blockFn : S1x128x128.Idx → EReal := fun y => blockScore x0 x1 x2 x3 x4 x5 (y 1) (y 2)

/-- Sixteen rows of a [128, 256] value from row `o` on, laid out as [16, 1, 256]: entry (r, 0, h) is entry (o + r, h). -/
theorem rows_apply (a : FVec Ideal S128x256 .bf16) (o : Nat) (hs : S128x256.Slices ![o, 0] S16x256)
    (r : Fin 16) (h : Fin 256) (i : Fin 128) (hi : i.val = o + r.val) :
    shapeCast S16x1x256 (extractStridedSlice S16x256 ![o, 0] a hs) shapeCasts_S16x256_S16x1x256 (ix3 r (0 : Fin 1) h)
      = a (ix2 i h) :=
  (shapeCast_apply _ shapeCasts_S16x256_S16x1x256 (ix3 r (0 : Fin 1) h) (ix2 r h) (by
      rewrite [Shape.rowMajor_val_two, Shape.rowMajor_val_three]
      show r.val * 256 + h.val = (r.val * 1 + 0) * 256 + h.val
      omega)).trans
    (extractStridedSlice_apply ![o, 0] a hs (ix2 r h) (ix2 i h) (fun c => by
      match c with
      | ⟨0, _⟩ => exact hi
      | ⟨1, _⟩ => show h.val = 0 + h.val; omega))

/-- A tile cut at row `o`, built from the body's own four values: entry (0, r, j) is the score of the pair (o + r, j). -/
theorem tile_score (o : Nat) (hs : S128x256.Slices ![o, 0] S16x256) (r : Fin 16) (j : Fin 128) (i : Fin 128)
    (hi : i.val = o + r.val) :
    k0_pay1 (F := Ideal) (k0_pay4 x5) (k0_pay7 x4)
        (shapeCast S16x1x256 (extractStridedSlice S16x256 ![o, 0] (k0_pay5 x0 x1) hs) shapeCasts_S16x256_S16x1x256)
        (shapeCast S1x128x256 (k0_pay6 x0 x2 x3) shapeCasts_S128x256_S1x128x256) (ix3 (0 : Fin 1) r j)
      = blockScore x0 x1 x2 x3 x4 x5 i j := by
  rw [Cert.KernelTile.tile_apply, Cert.KernelShares.b2_eq]
  unfold blockScore
  congr 1
  refine Finset.sum_congr rfl fun h _ => ?_
  rw [rows_apply _ o hs r h i hi, Cert.KernelShares.addLead _ _ j h, Cert.KernelShares.firstShare_apply,
    Cert.KernelShares.secondShare_apply, Cert.KernelShares.w2row_apply]

/-! The eight stored tiles are that tile at rows 0, 16, …, 112. -/

theorem tile0 : k0_pay9 (F := Ideal) (k0_pay8 x0 x1 x2 x3 x4 x5)
    = k0_pay1 (k0_pay4 x5) (k0_pay7 x4)
        (shapeCast S16x1x256 (extractStridedSlice S16x256 ![0, 0] (k0_pay5 x0 x1) slices_S128x256_o0_0_S16x256) shapeCasts_S16x256_S16x1x256)
        (shapeCast S1x128x256 (k0_pay6 x0 x2 x3) shapeCasts_S128x256_S1x128x256) := rfl

theorem tile1 (v16 : Ideal .f32) (v17 v20 : FVec Ideal S128x256 .bf16) (v22 : FVec Ideal S1x1x256 .bf16) :
    k0_pay10 (F := Ideal) v16 v17 v20 v22 = k0_pay1 v16 v22
        (shapeCast S16x1x256 (extractStridedSlice S16x256 ![16, 0] v17 slices_S128x256_o16_0_S16x256) shapeCasts_S16x256_S16x1x256)
        (shapeCast S1x128x256 v20 shapeCasts_S128x256_S1x128x256) := rfl

theorem tile2 (v16 : Ideal .f32) (v17 v20 : FVec Ideal S128x256 .bf16) (v22 : FVec Ideal S1x1x256 .bf16) :
    k0_pay11 (F := Ideal) v16 v17 v20 v22 = k0_pay1 v16 v22
        (shapeCast S16x1x256 (extractStridedSlice S16x256 ![32, 0] v17 slices_S128x256_o32_0_S16x256) shapeCasts_S16x256_S16x1x256)
        (shapeCast S1x128x256 v20 shapeCasts_S128x256_S1x128x256) := rfl

theorem tile3 (v16 : Ideal .f32) (v17 v20 : FVec Ideal S128x256 .bf16) (v22 : FVec Ideal S1x1x256 .bf16) :
    k0_pay13 (F := Ideal) v16 (k0_pay12 v17 v20 v22) = k0_pay1 v16 v22
        (shapeCast S16x1x256 (extractStridedSlice S16x256 ![48, 0] v17 slices_S128x256_o48_0_S16x256) shapeCasts_S16x256_S16x1x256)
        (shapeCast S1x128x256 v20 shapeCasts_S128x256_S1x128x256) := rfl

theorem tile4 (v16 : Ideal .f32) (v17 v20 : FVec Ideal S128x256 .bf16) (v22 : FVec Ideal S1x1x256 .bf16) :
    k0_pay14 (F := Ideal) v16 v17 v20 v22 = k0_pay1 v16 v22
        (shapeCast S16x1x256 (extractStridedSlice S16x256 ![64, 0] v17 slices_S128x256_o64_0_S16x256) shapeCasts_S16x256_S16x1x256)
        (shapeCast S1x128x256 v20 shapeCasts_S128x256_S1x128x256) := rfl

theorem tile5 (v16 : Ideal .f32) (v17 v20 : FVec Ideal S128x256 .bf16) (v22 : FVec Ideal S1x1x256 .bf16) :
    k0_pay15 (F := Ideal) v16 v17 v20 v22 = k0_pay1 v16 v22
        (shapeCast S16x1x256 (extractStridedSlice S16x256 ![80, 0] v17 slices_S128x256_o80_0_S16x256) shapeCasts_S16x256_S16x1x256)
        (shapeCast S1x128x256 v20 shapeCasts_S128x256_S1x128x256) := rfl

theorem tile6 (v16 : Ideal .f32) (v17 v20 : FVec Ideal S128x256 .bf16) (v22 : FVec Ideal S1x1x256 .bf16) :
    k0_pay1 (F := Ideal) v16 v22 (k0_pay16 v17) (k0_pay17 v20) = k0_pay1 v16 v22
        (shapeCast S16x1x256 (extractStridedSlice S16x256 ![96, 0] v17 slices_S128x256_o96_0_S16x256) shapeCasts_S16x256_S16x1x256)
        (shapeCast S1x128x256 v20 shapeCasts_S128x256_S1x128x256) := rfl

theorem tile7 (v16 : Ideal .f32) (v17 v20 : FVec Ideal S128x256 .bf16) (v22 : FVec Ideal S1x1x256 .bf16) :
    k0_pay2 (F := Ideal) v16 v17 v20 v22 = k0_pay1 v16 v22
        (shapeCast S16x1x256 (extractStridedSlice S16x256 ![112, 0] v17 slices_S128x256_o112_0_S16x256) shapeCasts_S16x256_S16x1x256)
        (shapeCast S1x128x256 v20 shapeCasts_S128x256_S1x128x256) := rfl

/-! ## Every stored piece agrees with the one block function -/

/-- A tile cut at row `o`, stored through the rectangle of sixteen rows from row `o`: at local index `x` it is the block
    function at the index `x` lands on, row `o + x₁`, column `x₂`. -/
theorem piece_agrees (o : Nat) (hs : S128x256.Slices ![o, 0] S16x256)
    (inb : ∀ a, (![0, o, 0] : Fin 3 → Nat) a + S1x16x128.size a ≤ S1x128x128.size a)
    (x : (Rect.unit (s := S1x128x128) ![0, o, 0] S1x16x128.size inb).shape.Idx) :
    k0_pay1 (F := Ideal) (k0_pay4 x5) (k0_pay7 x4)
        (shapeCast S16x1x256 (extractStridedSlice S16x256 ![o, 0] (k0_pay5 x0 x1) hs) shapeCasts_S16x256_S16x1x256)
        (shapeCast S1x128x256 (k0_pay6 x0 x2 x3) shapeCasts_S128x256_S1x128x256) x
      = blockFn x0 x1 x2 x3 x4 x5 ((Rect.unit (s := S1x128x128) ![0, o, 0] S1x16x128.size inb).emb x) := by
  have hx : x = ix3 (0 : Fin 1) (x 1 : Fin 16) (x 2 : Fin 128) := by
    funext a
    match a with
    | ⟨0, _⟩ => exact Subsingleton.elim (α := Fin 1) _ _
    | ⟨1, _⟩ => rfl
    | ⟨2, _⟩ => rfl
  have hi : ((Rect.unit (s := S1x128x128) ![0, o, 0] S1x16x128.size inb).emb x 1).val = o + (x 1 : Fin 16).val := by
    show o + 1 * (x 1).val = o + (x 1).val
    omega
  have hj : (Rect.unit (s := S1x128x128) ![0, o, 0] S1x16x128.size inb).emb x 2 = (x 2 : Fin 128) :=
    Fin.ext (by show 0 + 1 * (x 2).val = (x 2).val; omega)
  unfold blockFn
  rw [hj]
  conv_lhs => rw [hx]
  exact tile_score x0 x1 x2 x3 x4 x5 o hs (x 1) (x 2) _ hi

/-- The loads through whole rectangles at zero offsets read the blocks themselves. -/
theorem zeros3 : (![0, 0, 0] : Fin 3 → Nat) = fun _ => 0 := by
  funext a
  match a with
  | ⟨0, _⟩ => rfl
  | ⟨1, _⟩ => rfl
  | ⟨2, _⟩ => rfl

theorem zeros2 : (![0, 0] : Fin 2 → Nat) = fun _ => 0 := by
  funext a
  match a with
  | ⟨0, _⟩ => rfl
  | ⟨1, _⟩ => rfl

/-- THE BLOCK: what the body leaves in the output block is the block function of the loaded blocks. -/
theorem out_eq : out0_6 (F := Ideal) x0 x1 x2 x3 x4 x5 = blockFn x0 x1 x2 x3 x4 x5 := by
  funext y
  unfold out0_6
  simp only [View.ld_unit_zero (S := S1x128x64) zeros3, View.ld_unit_zero (S := S64x256) zeros2,
    View.ld_unit_zero (S := S1x256) zeros2, View.ld_unit_zero (S := S1x1) zeros2]
  refine View.canon_apply_of_pieces (Val := Elt Ideal) (e := EltTy.f32) (blockFn x0 x1 x2 x3 x4 x5) _ ?_ y
    (cover0_6 _ _ _ _ _ _ _ _ y)
  intro p hp x
  simp only [List.mem_cons, List.mem_singleton, List.not_mem_nil, or_false] at hp
  rcases hp with rfl | rfl | rfl | rfl | rfl | rfl | rfl | rfl
  · exact (congrFun (tile7 _ _ _ _) x).trans (piece_agrees x0 x1 x2 x3 x4 x5 112 slices_S128x256_o112_0_S16x256 inb_S1x128x128_S1x16x128_0_112_0 x)
  · exact (congrFun (tile6 _ _ _ _) x).trans (piece_agrees x0 x1 x2 x3 x4 x5 96 slices_S128x256_o96_0_S16x256 inb_S1x128x128_S1x16x128_0_96_0 x)
  · exact (congrFun (tile5 _ _ _ _) x).trans (piece_agrees x0 x1 x2 x3 x4 x5 80 slices_S128x256_o80_0_S16x256 inb_S1x128x128_S1x16x128_0_80_0 x)
  · exact (congrFun (tile4 _ _ _ _) x).trans (piece_agrees x0 x1 x2 x3 x4 x5 64 slices_S128x256_o64_0_S16x256 inb_S1x128x128_S1x16x128_0_64_0 x)
  · exact (congrFun (tile3 _ _ _ _) x).trans (piece_agrees x0 x1 x2 x3 x4 x5 48 slices_S128x256_o48_0_S16x256 inb_S1x128x128_S1x16x128_0_48_0 x)
  · exact (congrFun (tile2 _ _ _ _) x).trans (piece_agrees x0 x1 x2 x3 x4 x5 32 slices_S128x256_o32_0_S16x256 inb_S1x128x128_S1x16x128_0_32_0 x)
  · exact (congrFun (tile1 _ _ _ _) x).trans (piece_agrees x0 x1 x2 x3 x4 x5 16 slices_S128x256_o16_0_S16x256 inb_S1x128x128_S1x16x128_0_16_0 x)
  · exact (congrFun (tile0 x0 x1 x2 x3 x4 x5) x).trans (piece_agrees x0 x1 x2 x3 x4 x5 0 slices_S128x256_o0_0_S16x256 inb_S1x128x128_S1x16x128_0_0_0 x)

/-! ## The block function against the specification -/

/-- If the loaded blocks are the argument arrays read where the windows read them — the block of `states` at time step
    `t`, the upper and the lower half of `W1`, `b1` as a row, `W2` as a row, `b2` — then the block's score of a pair is
    the specification's score of that pair at time `t`. -/
theorem blockScore_eq_score (X : Cert.EdgeSpec.TStates.Idx → EReal) (W1 : Cert.EdgeSpec.TW1.Idx → EReal)
    (b1 : Cert.EdgeSpec.TB1.Idx → EReal) (W2 : Cert.EdgeSpec.TW2.Idx → EReal) (b2 : Cert.EdgeSpec.TB2.Idx → EReal)
    (t : Fin 16)
    (h0 : ∀ (i : Fin 128) (d : Fin 64), x0 (ix3 (0 : Fin 1) i d) = X (ix3 t i d))
    (h1 : ∀ (d : Fin 64) (h : Fin 256), x1 (ix2 d h) = W1 (ix2 (Cert.EdgeSpec.top d) h))
    (h2 : ∀ (d : Fin 64) (h : Fin 256), x2 (ix2 d h) = W1 (ix2 (Cert.EdgeSpec.bot d) h))
    (h3 : ∀ h : Fin 256, x3 (ix2 (0 : Fin 1) h) = b1 (ix1 h))
    (h4 : ∀ h : Fin 256, x4 (ix2 (0 : Fin 1) h) = W2 (ix2 h (0 : Fin 1)))
    (h5 : x5 (ix2 (0 : Fin 1) (0 : Fin 1)) = b2 (ix1 (0 : Fin 1))) (i j : Fin 128) :
    blockScore x0 x1 x2 x3 x4 x5 i j = Cert.EdgeSpec.score X W1 b1 W2 b2 t i j := by
  unfold blockScore Cert.EdgeSpec.score Cert.EdgeSpec.fromFirst Cert.EdgeSpec.fromSecond
  simp only [h0, h1, h2, h3, h4, h5]

end Cert.KernelBlock

end
-- ==== Proof.KernelArray.lean ====
/-
  From blocks to the array: what the region leaves in its output array.

  Grid point `t` (one of 16) reads block `t` of `states` and the whole of the five small operands, and writes block `t` of
  the [16, 128, 128] output. The small operands are host-made views of the arguments: the upper and the lower half of
  `W1` (two slices), `b1` as a row (a reshape), `W2` transposed to a row, `b2` as a [1, 1] array (a reshape). So the
  block written at `t` is the specification's full score array read through block `t`, the blocks cover the array, and
  the array after the region is the full score array.
-/
import proofs.«175090_j39195871543399_2_alg».proof.Proof.Gen.KernelIdeal.Frame
import proofs.«175090_j39195871543399_2_alg».proof.Proof.KernelBlock
import Idealize.ShloMosaic.Lib.Pipeline.Value
import Idealize.ShloMosaic.Lib.StableHlo.Run

set_option maxRecDepth 16384

noncomputable section

namespace Cert.KernelArray

open Idealize.ShloMosaic Idealize.ShloMosaic.TcCoe Idealize.ShloMosaic.ValueIdx Idealize.SL.Sem
open Cert.KernelIdeal Cert.KernelIdeal.Gen Cert.KernelBlock

variable (m : (ℓ : Loc nD τ sig) → Buf (Elt Ideal) ℓ)

/-! ## The host-made operands -/

theorem upper_eq (c : Dev nD) : (V m c main_v0 : S64x256.Idx → EReal)
    = extractStridedSlice S64x256 ![0, 0] (m ((c : Thread nD τ).loc main_arg2)) slices_S128x256_S64x256_0_0 := by
  show StableHlo.after hostOps0 (fun b => m (c, b)) (Proc.devRef .tc main_v0) = _
  after_results <;> rfl

theorem lower_eq (c : Dev nD) : (V m c main_v1 : S64x256.Idx → EReal)
    = extractStridedSlice S64x256 ![64, 0] (m ((c : Thread nD τ).loc main_arg2)) slices_S128x256_S64x256_64_0 := by
  show StableHlo.after hostOps0 (fun b => m (c, b)) (Proc.devRef .tc main_v1) = _
  after_results <;> rfl

theorem biasRow_eq (c : Dev nD) : (V m c main_v2 : S1x256.Idx → EReal)
    = shapeCast S1x256 (m ((c : Thread nD τ).loc main_arg3)) shapeCasts_S256_S1x256 := by
  show StableHlo.after hostOps0 (fun b => m (c, b)) (Proc.devRef .tc main_v2) = _
  after_results <;> rfl

theorem w2Row_eq (c : Dev nD) : (V m c main_v3 : S1x256.Idx → EReal)
    = transpose S1x256 [1, 0] (m ((c : Thread nD τ).loc main_arg4)) transposes_S256x1_S1x256_1_0 := by
  show StableHlo.after hostOps0 (fun b => m (c, b)) (Proc.devRef .tc main_v3) = _
  after_results <;> rfl

theorem b2Blk_eq (c : Dev nD) : (V m c main_v4 : S1x1.Idx → EReal)
    = shapeCast S1x1 (m ((c : Thread nD τ).loc main_arg5)) shapeCasts_S1_S1x1 := by
  show StableHlo.after hostOps0 (fun b => m (c, b)) (Proc.devRef .tc main_v4) = _
  after_results <;> rfl

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The time step of a grid point. -/
abbrev step (t : Fin cfg0.N) : Fin 16 := ⟨t.val, t.isLt⟩

/-! ## The input blocks at a point -/

theorem statesBlock_apply (c : Dev nD) (t : Fin cfg0.N) (i : Fin 128) (d : Fin 64) :
    iblk m c 0 t (ix3 (0 : Fin 1) i d) = m ((c : Thread nD τ).loc main_arg0) (ix3 (step t) i d) := by
  show V m c main_arg0 (((cfg0.win 0).blk t).view.emb (ix3 (0 : Fin 1) i d)) = _
  rw [V_main_arg0]
  obtain ⟨e0, e1, e2, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 128 + 1 * i.val = i.val; omega
  | ⟨2, _⟩ => show win0_0.index t (2 : Fin 3) * 64 + 1 * d.val = d.val; omega

theorem upperBlock_apply (c : Dev nD) (t : Fin cfg0.N) (d : Fin 64) (h : Fin 256) :
    iblk m c 1 t (ix2 d h) = m ((c : Thread nD τ).loc main_arg2) (ix2 (Cert.EdgeSpec.top d) h) := by
  show V m c main_v0 (((cfg0.win 1).blk t).view.emb (ix2 d h)) = _
  rw [upper_eq]
  obtain ⟨-, -, -, e0, e1, -⟩ := idx_facts t
  refine extractStridedSlice_apply ![0, 0] _ slices_S128x256_S64x256_0_0 _ (ix2 (Cert.EdgeSpec.top d) h) (fun a => ?_)
  match a with
  | ⟨0, _⟩ => show d.val = 0 + (win0_1.index t (0 : Fin 2) * 64 + 1 * d.val); omega
  | ⟨1, _⟩ => show h.val = 0 + (win0_1.index t (1 : Fin 2) * 256 + 1 * h.val); omega

theorem lowerBlock_apply (c : Dev nD) (t : Fin cfg0.N) (d : Fin 64) (h : Fin 256) :
    iblk m c 2 t (ix2 d h) = m ((c : Thread nD τ).loc main_arg2) (ix2 (Cert.EdgeSpec.bot d) h) := by
  show V m c main_v1 (((cfg0.win 2).blk t).view.emb (ix2 d h)) = _
  rw [lower_eq]
  obtain ⟨-, -, -, -, -, e0, e1, -⟩ := idx_facts t
  refine extractStridedSlice_apply ![64, 0] _ slices_S128x256_S64x256_64_0 _ (ix2 (Cert.EdgeSpec.bot d) h) (fun a => ?_)
  match a with
  | ⟨0, _⟩ => show 64 + d.val = 64 + (win0_2.index t (0 : Fin 2) * 64 + 1 * d.val); omega
  | ⟨1, _⟩ => show h.val = 0 + (win0_2.index t (1 : Fin 2) * 256 + 1 * h.val); omega

theorem biasBlock_apply (c : Dev nD) (t : Fin cfg0.N) (h : Fin 256) :
    iblk m c 3 t (ix2 (0 : Fin 1) h) = m ((c : Thread nD τ).loc main_arg3) (ix1 h) := by
  show V m c main_v2 (((cfg0.win 3).blk t).view.emb (ix2 (0 : Fin 1) h)) = _
  rw [biasRow_eq]
  obtain ⟨-, -, -, -, -, -, -, e0, e1, -⟩ := idx_facts t
  refine shapeCast_apply _ shapeCasts_S256_S1x256 _ (ix1 h) ?_
  rewrite [Shape.rowMajor_val_one, Shape.rowMajor_val_two]
  show h.val = (win0_3.index t (0 : Fin 2) * 1 + 1 * 0) * 256 + (win0_3.index t (1 : Fin 2) * 256 + 1 * h.val)
  omega

theorem w2Block_apply (c : Dev nD) (t : Fin cfg0.N) (h : Fin 256) :
    iblk m c 4 t (ix2 (0 : Fin 1) h) = m ((c : Thread nD τ).loc main_arg4) (ix2 h (0 : Fin 1)) := by
  show V m c main_v3 (((cfg0.win 4).blk t).view.emb (ix2 (0 : Fin 1) h)) = _
  rw [w2Row_eq]
  obtain ⟨-, -, -, -, -, -, -, -, -, e0, e1, -⟩ := idx_facts t
  refine transpose_apply [1, 0] _ transposes_S256x1_S1x256_1_0 _ (ix2 h (0 : Fin 1)) (fun b => ?_)
  match b with
  | ⟨0, _⟩ => show 0 = win0_4.index t (0 : Fin 2) * 1 + 1 * 0; omega
  | ⟨1, _⟩ => show h.val = win0_4.index t (1 : Fin 2) * 256 + 1 * h.val; omega

theorem b2Block_apply (c : Dev nD) (t : Fin cfg0.N) :
    iblk m c 5 t (ix2 (0 : Fin 1) (0 : Fin 1)) = m ((c : Thread nD τ).loc main_arg5) (ix1 (0 : Fin 1)) := by
  show V m c main_v4 (((cfg0.win 5).blk t).view.emb (ix2 (0 : Fin 1) (0 : Fin 1))) = _
  rw [b2Blk_eq]
  obtain ⟨-, -, -, -, -, -, -, -, -, -, -, e0, e1, -⟩ := idx_facts t
  refine shapeCast_apply _ shapeCasts_S1_S1x1 _ (ix1 (0 : Fin 1)) ?_
  rewrite [Shape.rowMajor_val_one, Shape.rowMajor_val_two]
  show 0 = (win0_5.index t (0 : Fin 2) * 1 + 1 * 0) * 1 + (win0_5.index t (1 : Fin 2) * 1 + 1 * 0)
  omega

/-! ## What a point writes back, the cover, the array -/

/-- The specification's full score array of device `c`'s arguments. -/
abbrev fullOf (c : Dev nD) : S16x128x128.Idx → EReal :=
  Cert.EdgeSpec.full (m ((c : Thread nD τ).loc main_arg0)) (m ((c : Thread nD τ).loc main_arg2))
    (m ((c : Thread nD τ).loc main_arg3)) (m ((c : Thread nD τ).loc main_arg4)) (m ((c : Thread nD τ).loc main_arg5))

/-- WHAT POINT `t` WRITES BACK is block `t` of the full score array. -/
theorem flushed_eq (c : Dev nD) (t : Fin cfg0.N) :
    (dats m 0 c).flushed 6 t = ((cfg0.win 6).blk t).view.read (Elt Ideal) (fullOf m c) := by
  show (cfg0.win 6).cut (grid0.coords t) ((dats m 0 c).after 6 t) = _
  rw [after0_6, Cert.KernelBlock.out_eq]
  obtain ⟨-, -, -, -, -, -, -, -, -, -, -, -, -, e0, e1, e2⟩ := idx_facts t
  funext j
  show blockScore (iblk m c 0 t) (iblk m c 1 t) (iblk m c 2 t) (iblk m c 3 t) (iblk m c 4 t) (iblk m c 5 t) (j 1) (j 2)
    = Cert.EdgeSpec.score _ _ _ _ _ (((cfg0.win 6).blk t).view.emb j 0) (((cfg0.win 6).blk t).view.emb j 1)
        (((cfg0.win 6).blk t).view.emb j 2)
  have h0 : ((cfg0.win 6).blk t).view.emb j 0 = step t :=
    Fin.ext (by
      have hj : (j 0).val < 1 := (j 0).isLt
      show win0_6.index t (0 : Fin 3) * 1 + 1 * (j 0).val = t.val
      omega)
  have h1 : ((cfg0.win 6).blk t).view.emb j 1 = (j 1 : Fin 128) :=
    Fin.ext (by show win0_6.index t (1 : Fin 3) * 128 + 1 * (j 1).val = (j 1).val; omega)
  have h2 : ((cfg0.win 6).blk t).view.emb j 2 = (j 2 : Fin 128) :=
    Fin.ext (by show win0_6.index t (2 : Fin 3) * 128 + 1 * (j 2).val = (j 2).val; omega)
  rw [h0, h1, h2]
  exact blockScore_eq_score (iblk m c 0 t) (iblk m c 1 t) (iblk m c 2 t) (iblk m c 3 t) (iblk m c 4 t) (iblk m c 5 t)
    _ _ _ _ _ (step t) (statesBlock_apply m c t) (upperBlock_apply m c t) (lowerBlock_apply m c t)
    (biasBlock_apply m c t) (w2Block_apply m c t) (b2Block_apply m c t) (j 1) (j 2)

/-- An index of the array is in point `t`'s block iff each coordinate is in the block's range on its axis. -/
theorem mem_blk (t : Fin cfg0.N) (i : S16x128x128.Idx) :
    i ∈ ((cfg0.win 6).blk t).view.set ↔ ∀ a : Fin 3, win0_6.index t a * S1x128x128.size a ≤ (i a).val
      ∧ (i a).val < win0_6.index t a * S1x128x128.size a + S1x128x128.size a := by
  show i ∈ ((View.whole main_v5).slice (win0_6.rect t)).set ↔ _
  rw [View.set_slice_whole, Rect.mem_set_unit]
  exact Iff.rfl

/-- Every index is in the block of the point named by its first coordinate. -/
theorem cover (i : S16x128x128.Idx) :
    ∃ t : Fin cfg0.N, (cfg0.win 6).flush t = true ∧ i ∈ ((cfg0.win 6).blk t).view.set := by
  have hi0 : (i 0).val < 16 := (i 0).isLt
  have hi1 : (i 1).val < 128 := (i 1).isLt
  have hi2 : (i 2).val < 128 := (i 2).isLt
  have hN : (i 0).val < cfg0.N := by rw [show cfg0.N = 16 from N_0]; exact hi0
  refine ⟨⟨(i 0).val, hN⟩, flush0_6 _, ?_⟩
  rw [mem_blk]
  obtain ⟨-, -, -, -, -, -, -, -, -, -, -, -, -, e0, e1, e2⟩ := idx_facts ⟨(i 0).val, hN⟩
  intro a
  match a with
  | ⟨0, _⟩ =>
    show win0_6.index _ (0 : Fin 3) * 1 ≤ (i 0).val ∧ (i 0).val < win0_6.index _ (0 : Fin 3) * 1 + 1
    have e0' : win0_6.index ⟨(i 0).val, hN⟩ (0 : Fin 3) = (i 0).val := e0
    omega
  | ⟨1, _⟩ =>
    show win0_6.index _ (1 : Fin 3) * 128 ≤ (i 1).val ∧ (i 1).val < win0_6.index _ (1 : Fin 3) * 128 + 128
    omega
  | ⟨2, _⟩ =>
    show win0_6.index _ (2 : Fin 3) * 128 ≤ (i 2).val ∧ (i 2).val < win0_6.index _ (2 : Fin 3) * 128 + 128
    omega

/-- THE ARRAY after the region: the full score array. -/
theorem final (c : Dev nD) : (dats m 0 c).arrAt 6 cfg0.N = fullOf m c :=
  (dats m 0 c).arrAt_eq_of_cover 6 (fullOf m c) (fun t _ => flushed_eq m c t) cover

end Cert.KernelArray

end
-- ==== Proof.KernelTailDef.lean ====
/-
  The host operations that follow the kernel's region, as one function of the region's output array.

  The region leaves the scores of all ordered pairs, the diagonal included, as an array A of shape [16, 128, 128].  The
  operations after it build the table of column numbers k + [k ≥ i] (shape [128, 127], repeated over the 16 time steps)
  and take, along the last axis of A, the entries the table names: an index below zero has 128 added, the entry is kept
  when the index lies in [0, 127] and replaced by a fill value otherwise, and the entries are fetched by a gather whose
  first two axes are batch axes.  Each definition below is the composition of the printed operations in program order,
  with the printed side conditions.
-/
import proofs.«175090_j39195871543399_2_alg».proof.Proof.Gen.KernelIdeal
import Idealize.ShloMosaic.PureOps.Ideal

noncomputable section

namespace Cert.KernelTail

open Cert.KernelIdeal Cert.KernelIdeal.Gen Idealize.ShloMosaic

/-- The table of column numbers, k + [k ≥ i] at (t, i, k), as 32-bit words. -/
def table : IVec S16x128x127 32 :=
  broadcastInDim S16x128x127 ![0, 1, 2] bcast_S1x128x127_S16x128x127_0_1_2
    (broadcastInDim S1x128x127 ![1, 2] bcast_S128x127_S1x128x127_1_2
      (addi
        (broadcastInDim S128x127 ![0, 1] bcast_S1x127_S128x127_0_1
          (broadcastInDim S1x127 ![1] bcast_S127_S1x127_1 (iotaInDim S127 32 0)))
        (extui 32
          (cmpi .sge
            (broadcastInDim S128x127 ![0, 1] bcast_S1x127_S128x127_0_1
              (broadcastInDim S1x127 ![1] bcast_S127_S1x127_1 (iotaInDim S127 32 0)))
            (broadcastInDim S128x127 ![0, 1] bcast_S128x1_S128x127_0_1
              (broadcastInDim S128x1 ![0] bcast_S128_S128x1_0 (iotaInDim S128 32 0))))
          natLt_1_32)))

/-- The table with 128 added to the entries below zero. -/
def wrapped : IVec S16x128x127 32 :=
  select (cmpi .slt table (broadcastInDim S16x128x127 ![] bcast_S_S16x128x127 (constantI S_ 32 0#32)))
    (addi table (broadcastInDim S16x128x127 ![] bcast_S_S16x128x127 (constantI S_ 32 128#32)))
    table

/-- The start indices of the gather: the same words with a trailing axis of size one. -/
def starts : IVec S16x128x127x1 32 :=
  shapeCast S16x128x127x1 wrapped shapeCasts_S16x128x127_S16x128x127x1

/-- The mask "the index lies in [0, 127]", reduced by "and" over the trailing axis from the value true. -/
def inRange : IVec S16x128x127 1 :=
  Host.reduce IntOp.andi
    (andi
      (cmpi .sge starts (broadcastInDim S16x128x127x1 ![] bcast_S_S16x128x127x1 (constantI S_ 32 0#32)))
      (cmpi .sle starts
        (broadcastInDim S16x128x127x1 ![0, 1, 2, 3] bcast_S1x1x1x1_S16x128x127x1_0_1_2_3
          (broadcastInDim S1x1x1x1 ![3] bcast_S1_S1x1x1x1_3 (constantI S1 32 127#32)))))
    (constantI S_ 1 1#1) reducesTo_S16x128x127x1_S16x128x127_d3 h_S_

/-- The result of the operations after the region, as a function of the region's output array `A`. -/
def tail (A : FVec Ideal S16x128x128 .f32) : FVec Ideal S16x128x127 .f32 :=
  select inRange
    (Host.gather gather_S16x128x128_S16x128x127x1_S16x128x127_n_2_01_01_2_3_111 A starts)
    (broadcastInDim S16x128x127 ![] bcast_S_S16x128x127 (constant (F := Ideal) S_ .f32 0x7FC00000#32))

end Cert.KernelTail

end
-- ==== Proof.KernelTailTable.lean ====
/-
  The index table and the words derived from it, read at an index.

  At (t, i, k) the table's word is the number j = k + [i ≤ k], the k-th node other than i, which is below 128.  Small
  numbers do not wrap as 32-bit words and their signed reading is the number itself; so the test "index below zero"
  fails and the table passes through the correction unchanged, the reshape to a trailing unit axis only renames the
  index, and both range tests 0 ≤ j and j ≤ 127 hold.
-/
import proofs.«175090_j39195871543399_2_alg».proof.Proof.KernelTailDef
import proofs.«175090_j39195871543399_2_alg».proof.Proof.EdgeSpec
import Idealize.ShloMosaic.Lib.Pipeline.Value
import Idealize.ShloMosaic.Lib.ValueIdx

noncomputable section

namespace Cert.KernelTail

open Cert.KernelIdeal Cert.KernelIdeal.Gen Idealize.ShloMosaic Idealize.ShloMosaic.ValueIdx
open Cert.EdgeSpec (neighbour neighbour_val)

/-! ## Words that hold small numbers -/

/-- A number below 2³² is the unsigned reading of its word. -/
theorem toNat_word (n : Nat) (hn : n < 4294967296) : (BitVec.ofNat 32 n).toNat = n := by
  rw [BitVec.toNat_ofNat]; exact Nat.mod_eq_of_lt hn

/-- A number below 2³¹ is the signed reading of its word. -/
theorem toInt_word (n : Nat) (hn : n < 2147483648) : (BitVec.ofNat 32 n).toInt = (n : Int) := by
  have h := toNat_word n (by omega)
  rw [BitVec.toInt_eq_toNat_of_lt (by rw [h]; omega), h]

/-- The signed comparison "k ≥ i" of two small numbers' words is the comparison of the numbers. -/
theorem sge_word (k i : Nat) (hk : k < 2147483648) (hi : i < 2147483648) :
    IntOp.cmpi .sge (BitVec.ofNat 32 k) (BitVec.ofNat 32 i) = BitVec.ofBool (decide (i ≤ k)) := by
  show BitVec.ofBool ((BitVec.ofNat 32 i).sle (BitVec.ofNat 32 k)) = _
  rw [BitVec.sle_eq_decide, toInt_word i hi, toInt_word k hk]
  simp only [Int.ofNat_le]

/-- k + [i ≤ k] as words: the sum does not wrap. -/
theorem word_neighbour (i k : Nat) (hi : i < 128) (hk : k < 127) :
    IntOp.addi (BitVec.ofNat 32 k) ((IntOp.cmpi .sge (BitVec.ofNat 32 k) (BitVec.ofNat 32 i)).setWidth 32)
      = BitVec.ofNat 32 (k + if i ≤ k then 1 else 0) := by
  rw [sge_word k i (by omega) (by omega)]
  unfold IntOp.addi
  apply BitVec.eq_of_toNat_eq
  have e1 : (BitVec.ofBool true).setWidth 32 = 1#32 := by decide
  have e0 : (BitVec.ofBool false).setWidth 32 = 0#32 := by decide
  by_cases h : i ≤ k
  · rw [decide_eq_true h, if_pos h, e1]
    simp only [BitVec.toNat_add, BitVec.toNat_ofNat, Nat.reducePow]
    omega
  · rw [decide_eq_false h, if_neg h, e0]
    simp only [BitVec.toNat_add, BitVec.toNat_ofNat, Nat.reducePow]
    omega

/-- An index that is not negative is kept by "index < 0 ? index + 128 : index". -/
theorem select_word (n : Nat) (hn : n < 2147483648) :
    Scalar.select (IntOp.cmpi .slt (BitVec.ofNat 32 n) 0#32) (IntOp.addi (BitVec.ofNat 32 n) 128#32) (BitVec.ofNat 32 n)
      = BitVec.ofNat 32 n := by
  have h0 : IntOp.cmpi .slt (BitVec.ofNat 32 n) 0#32 = 0#1 := by
    show BitVec.ofBool ((BitVec.ofNat 32 n).slt 0#32) = _
    rw [BitVec.slt_eq_decide, toInt_word n hn, BitVec.toInt_zero]
    have : ¬ ((n : Int) < 0) := by omega
    rw [decide_eq_false this]
    rfl
  rw [h0, select_zero]

/-- Both range tests hold for a number in [0, 127]. -/
theorem range_word (n : Nat) (hn : n < 128) :
    IntOp.andi (IntOp.cmpi .sge (BitVec.ofNat 32 n) 0#32) (IntOp.cmpi .sle (BitVec.ofNat 32 n) 127#32) = 1#1 := by
  have h1 : IntOp.cmpi .sge (BitVec.ofNat 32 n) 0#32 = 1#1 := by
    show BitVec.ofBool ((0#32).sle (BitVec.ofNat 32 n)) = _
    rw [BitVec.sle_eq_decide, toInt_word n (by omega), BitVec.toInt_zero]
    have : (0 : Int) ≤ (n : Int) := by omega
    rw [decide_eq_true this]
    rfl
  have h2 : IntOp.cmpi .sle (BitVec.ofNat 32 n) 127#32 = 1#1 := by
    show BitVec.ofBool ((BitVec.ofNat 32 n).sle (BitVec.ofNat 32 127)) = _
    rw [BitVec.sle_eq_decide, toInt_word n (by omega), toInt_word 127 (by omega)]
    have : (n : Int) ≤ ((127 : Nat) : Int) := by omega
    rw [decide_eq_true this]
    rfl
  rw [h1, h2]
  decide

/-! ## The table, its correction and the start indices at an index -/

/-- The table at (t, i, k) is the word of the k-th node other than i. -/
theorem table_apply (y : S16x128x127.Idx) (i : Fin 128) (k : Fin 127) (h1 : (y 1).val = i.val) (h2 : (y 2).val = k.val) :
    table y = BitVec.ofNat 32 (neighbour i k).val := by
  have hi := i.isLt
  have hk := k.isLt
  unfold table
  show IntOp.addi (BitVec.ofNat 32 (y 2).val)
    ((IntOp.cmpi .sge (BitVec.ofNat 32 (y 2).val) (BitVec.ofNat 32 (y 1).val)).setWidth 32) = _
  rw [h1, h2, neighbour_val]
  exact word_neighbour i.val k.val hi hk

/-- The correction leaves the table's entries as they are. -/
theorem wrapped_apply (y : S16x128x127.Idx) (i : Fin 128) (k : Fin 127) (h1 : (y 1).val = i.val) (h2 : (y 2).val = k.val) :
    wrapped y = BitVec.ofNat 32 (neighbour i k).val := by
  have hn := (neighbour i k).isLt
  unfold wrapped
  show Scalar.select (IntOp.cmpi .slt (table y) 0#32) (IntOp.addi (table y) 128#32) (table y) = _
  rw [table_apply y i k h1 h2]
  exact select_word _ (by omega)

/-- The start index at (t, i, k, 0) is the word of the k-th node other than i. -/
theorem starts_apply (z : S16x128x127x1.Idx) (i : Fin 128) (k : Fin 127) (h1 : (z 1).val = i.val) (h2 : (z 2).val = k.val) :
    starts z = BitVec.ofNat 32 (neighbour i k).val := by
  unfold starts
  rw [shapeCast_apply wrapped shapeCasts_S16x128x127_S16x128x127x1 z
    (ix3 (⟨(z 0).val, (z 0).isLt⟩ : Fin 16) (⟨(z 1).val, (z 1).isLt⟩ : Fin 128) (⟨(z 2).val, (z 2).isLt⟩ : Fin 127))
    (by
      rewrite [Shape.rowMajor_val_three, Shape.rowMajor_val_four]
      have h3 : (z 3).val < 1 := (z 3).isLt
      show ((z 0).val * 128 + (z 1).val) * 127 + (z 2).val = (((z 0).val * 128 + (z 1).val) * 127 + (z 2).val) * 1 + (z 3).val
      omega)]
  exact wrapped_apply _ i k h1 h2

/-- The range mask before the reduction is one everywhere. -/
theorem mask_apply (z : S16x128x127x1.Idx) :
    andi
      (cmpi .sge starts (broadcastInDim S16x128x127x1 ![] bcast_S_S16x128x127x1 (constantI S_ 32 0#32)))
      (cmpi .sle starts
        (broadcastInDim S16x128x127x1 ![0, 1, 2, 3] bcast_S1x1x1x1_S16x128x127x1_0_1_2_3
          (broadcastInDim S1x1x1x1 ![3] bcast_S1_S1x1x1x1_3 (constantI S1 32 127#32)))) z = 1#1 := by
  show IntOp.andi (IntOp.cmpi .sge (starts z) 0#32) (IntOp.cmpi .sle (starts z) 127#32) = 1#1
  rw [starts_apply z ⟨(z 1).val, (z 1).isLt⟩ ⟨(z 2).val, (z 2).isLt⟩ rfl rfl]
  exact range_word _ (neighbour _ _).isLt

end Cert.KernelTail

end
-- ==== Proof.KernelTailGather.lean ====
/-
  The gather along the last axis, and an "and"-reduction of ones, read at an index.

  The gather's operand is [16, 128, 128], its start indices [16, 128, 127, 1], its result [16, 128, 127].  Axes 0 and 1
  of the operand are batching axes, paired with axes 0 and 1 of the start indices: result (t, i, k) reads the operand
  at (t, i, c), where c is the start index at (t, i, k, 0) read as a signed integer and clamped into [0, 127]; axis 2 is
  collapsed, and there is no offset axis.  A reduction by "and" from the value one over elements that are all one is one.
-/
import proofs.«175090_j39195871543399_2_alg».proof.Proof.Gen.KernelIdeal
import Idealize.ShloMosaic.PureOps.Reduce
import Idealize.ShloMosaic.Lib.ValueIdx

noncomputable section

namespace Cert.KernelTail

open Cert.KernelIdeal Cert.KernelIdeal.Gen Idealize.ShloMosaic Idealize.ShloMosaic.ValueIdx

/-- The start-indices index (t, i, k, 0) of result index (t, i, k). -/
abbrev startAt (y : S16x128x127.Idx) : S16x128x127x1.Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The gather at (t, i, k): the operand at (t, i, start index of (t, i, k) read signed and clamped into [0, 127]). -/
theorem gather_last_apply {α : Type} (x : S16x128x128.Idx → α) (idx : IVec S16x128x127x1 32) (y : S16x128x127.Idx) :
    Host.gather gather_S16x128x128_S16x128x127x1_S16x128x127_n_2_01_01_2_3_111 x idx y
      = x (fun a => match a with
        | ⟨0, _⟩ => ⟨(y 0).val, (y 0).isLt⟩
        | ⟨1, _⟩ => ⟨(y 1).val, (y 1).isLt⟩
        | ⟨2, _⟩ => ⟨min (idx (startAt y)).toInt.toNat 127, Nat.lt_succ_of_le (Nat.min_le_right _ _)⟩) := by
  unfold Host.gather
  congr 1
  funext a
  refine Fin.ext ?_
  match a with
  | ⟨0, _⟩ =>
    show gather_S16x128x128_S16x128x127x1_S16x128x127_n_2_01_01_2_3_111.start y idx 0
      + gather_S16x128x128_S16x128x127x1_S16x128x127_n_2_01_01_2_3_111.batchCoord y 0
      + gather_S16x128x128_S16x128x127x1_S16x128x127_n_2_01_01_2_3_111.offCoord y 0 = (y 0).val
    rw [GatherDims.start_batching _ _ _ _ (by decide), GatherDims.offCoord_eq_zero _ _ _ (by decide), Nat.zero_add,
      Nat.add_zero]
    unfold GatherDims.batchCoord
    rw [dif_pos (by decide)]
    rfl
  | ⟨1, _⟩ =>
    show gather_S16x128x128_S16x128x127x1_S16x128x127_n_2_01_01_2_3_111.start y idx 1
      + gather_S16x128x128_S16x128x127x1_S16x128x127_n_2_01_01_2_3_111.batchCoord y 1
      + gather_S16x128x128_S16x128x127x1_S16x128x127_n_2_01_01_2_3_111.offCoord y 1 = (y 1).val
    rw [GatherDims.start_batching _ _ _ _ (by decide), GatherDims.offCoord_eq_zero _ _ _ (by decide), Nat.zero_add,
      Nat.add_zero]
    unfold GatherDims.batchCoord
    rw [dif_pos (by decide)]
    rfl
  | ⟨2, _⟩ =>
    show gather_S16x128x128_S16x128x127x1_S16x128x127_n_2_01_01_2_3_111.start y idx 2
      + gather_S16x128x128_S16x128x127x1_S16x128x127_n_2_01_01_2_3_111.batchCoord y 2
      + gather_S16x128x128_S16x128x127x1_S16x128x127_n_2_01_01_2_3_111.offCoord y 2 = _
    rw [GatherDims.batchCoord_eq_zero _ _ _ (by decide), GatherDims.offCoord_eq_zero _ _ _ (by decide)]
    simp only [Nat.add_zero]
    unfold GatherDims.start
    rw [dif_pos (show (2 : Fin 3) ∈ gather_S16x128x128_S16x128x127x1_S16x128x127_n_2_01_01_2_3_111.startIndexMap from
      List.mem_singleton.mpr rfl)]
    have hsi : gather_S16x128x128_S16x128x127x1_S16x128x127_n_2_01_01_2_3_111.siIdx y
        ⟨List.idxOf (2 : Fin 3) gather_S16x128x128_S16x128x127x1_S16x128x127_n_2_01_01_2_3_111.startIndexMap,
          List.idxOf_lt_length_iff.2 (List.mem_singleton.mpr rfl)⟩ = startAt y := by
      funext b; refine Fin.ext ?_
      match b with
      | ⟨0, _⟩ => rfl
      | ⟨1, _⟩ => rfl
      | ⟨2, _⟩ => rfl
      | ⟨3, _⟩ => rfl
    rw [hsi]
    rfl

/-- A left fold by "and" from one over one-bit words that are all one is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l fun n hn => h n (List.mem_cons_of_mem _ hn)

/-- A reduction by "and" from the value one of an array of ones is one. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun i _ => hx i

end Cert.KernelTail

end
-- ==== Proof.KernelTail.lean ====
/-
  The operations after the region drop the diagonal.

  With A the region's output array [16, 128, 128], the result at (t, i, k) is A at (t, i, j), j = k + [i ≤ k] the k-th
  node other than i: the table's word at (t, i, k) is j, a number in [0, 127], so the range mask is one, the select
  takes the gathered value and never the fill value, and the gather's clamp into [0, 127] keeps j.
-/
import proofs.«175090_j39195871543399_2_alg».proof.Proof.KernelTailTable
import proofs.«175090_j39195871543399_2_alg».proof.Proof.KernelTailGather

noncomputable section

namespace Cert.KernelTail

open Cert.KernelIdeal Cert.KernelIdeal.Gen Idealize.ShloMosaic Idealize.ShloMosaic.ValueIdx
open Cert.EdgeSpec (neighbour)

/-- The reduced range mask is one at every index. -/
theorem inRange_apply (y : S16x128x127.Idx) : inRange y = 1#1 := by
  unfold inRange
  exact reduce_andi_ones _ _ _ _ y rfl mask_apply

/-- The operations after the region, at (t, i, k): the region's output at (t, i, the k-th node other than i). -/
theorem tail_apply (A : FVec Ideal S16x128x128 .f32) (t : Fin 16) (i : Fin 128) (k : Fin 127) :
    tail A (ix3 t i k) = A (ix3 t i (Cert.EdgeSpec.neighbour i k)) := by
  have hn := (neighbour i k).isLt
  unfold tail
  show Scalar.select (inRange (ix3 t i k))
    (Host.gather gather_S16x128x128_S16x128x127x1_S16x128x127_n_2_01_01_2_3_111 A starts (ix3 t i k)) _ = _
  rw [inRange_apply, select_one, gather_last_apply, starts_apply (startAt (ix3 t i k)) i k rfl rfl,
    toInt_word _ (by omega)]
  congr 1
  funext a
  refine Fin.ext ?_
  match a with
  | ⟨0, _⟩ => rfl
  | ⟨1, _⟩ => rfl
  | ⟨2, _⟩ =>
    show min (Int.toNat (((neighbour i k).val : Nat) : Int)) 127 = (neighbour i k).val
    omega

/-- Applied to the array of all pairs' scores, the operations after the region give the array of edge scores. -/
theorem tail_full (X : Cert.EdgeSpec.TStates.Idx → EReal) (W1 : Cert.EdgeSpec.TW1.Idx → EReal)
    (b1 : Cert.EdgeSpec.TB1.Idx → EReal) (W2 : Cert.EdgeSpec.TW2.Idx → EReal) (b2 : Cert.EdgeSpec.TB2.Idx → EReal) :
    tail (Cert.EdgeSpec.full X W1 b1 W2 b2) = Cert.EdgeSpec.edges X W1 b1 W2 b2 := by
  funext y
  obtain ⟨t, i, k, rfl⟩ : ∃ (t : Fin 16) (i : Fin 128) (k : Fin 127), y = ix3 t i k := ⟨y 0, y 1, y 2, eq_ix3 y⟩
  rw [tail_apply]
  rfl

end Cert.KernelTail

end
-- ==== Proof.KernelTailRun.lean ====
/-
  The host lines after the region, run: the result buffer holds the neighbour-column read of whatever array the region
  left. The lines are the table of neighbour columns and the read along the last axis; composed in program order they
  are one function of the region's output array, and the run's value at the result is that function of it.
-/
import proofs.«175090_j39195871543399_2_alg».proof.Proof.Gen.KernelIdeal.Frame
import proofs.«175090_j39195871543399_2_alg».proof.Proof.KernelTail
import Idealize.ShloMosaic.Lib.StableHlo.Run

set_option maxRecDepth 16384

noncomputable section

namespace Cert.KernelTailRun

open Idealize.ShloMosaic Idealize.ShloMosaic.TcCoe Idealize.SL.Sem
open Cert.KernelIdeal Cert.KernelIdeal.Gen

variable (m : (ℓ : Loc nD τ sig) → Buf (Elt Ideal) ℓ)

/-- What the region leaves, as the lines after it find it: the windows' arrays at their final contents, every other
    buffer as at the region's entry. -/
abbrev leftBy (c : Dev nD) : Valuation τ sig (Elt Ideal) :=
  Pipeline.withArrays (cfgs 0).spec c (V0 m c) (fun w => (dats m 0 c).arrAt w (cfgs 0).N)

set_option maxHeartbeats 4000000 in
/-- The result after the lines that follow the region: the neighbour-column read of the region's output array. -/
theorem result_term (c : Dev nD) :
    Pipeline.afterTail₀ cfgs (dats m) 0 (V0 m) [hostOps1, hostOps1_1] c main_v19
      = Cert.KernelTail.tail (leftBy m c (Proc.devRef .tc main_v5)) := by
  unfold Pipeline.afterTail₀
  simp only [hostOps1, hostOps1_1, List.flatten_cons, List.flatten_nil, List.append_nil, List.cons_append, List.nil_append]
  after_results_simp
  simp only [cast_eq]
  first
    | rfl
    | (unfold Cert.KernelTail.tail Cert.KernelTail.inRange Cert.KernelTail.starts Cert.KernelTail.wrapped
        Cert.KernelTail.table; rfl)

end Cert.KernelTailRun

end
-- ==== Proof.KernelRun.lean ====
/-
  The kernel program's run, read: what its result buffer holds.

  After the region the output array is the full score array (every ordered pair, the diagonal included). The host lines
  that follow drop the diagonal: they build the table of neighbour columns, k + [i ≤ k] for row i, and read the array
  along its last axis at those columns. So the result is the specification's edge array, and the arguments are as
  they were.
-/
import proofs.«175090_j39195871543399_2_alg».proof.Proof.KernelArray
import proofs.«175090_j39195871543399_2_alg».proof.Proof.KernelTailRun

set_option maxRecDepth 16384

noncomputable section

namespace Cert.KernelRun

open Idealize.ShloMosaic Idealize.ShloMosaic.TcCoe Idealize.ShloMosaic.ValueIdx Idealize.SL.Sem
open Cert.KernelIdeal Cert.KernelIdeal.Gen Cert.KernelArray

variable (m : (ℓ : Loc nD τ sig) → Buf (Elt Ideal) ℓ)

/-- The specification's edge array of device `c`'s arguments. -/
abbrev edgesOf (c : Dev nD) : S16x128x127.Idx → EReal :=
  Cert.EdgeSpec.edges (m ((c : Thread nD τ).loc main_arg0)) (m ((c : Thread nD τ).loc main_arg2))
    (m ((c : Thread nD τ).loc main_arg3)) (m ((c : Thread nD τ).loc main_arg4)) (m ((c : Thread nD τ).loc main_arg5))

/-- The lines after the region find the output array at the full score array. -/
theorem left_eq (c : Dev nD) : Cert.KernelTailRun.leftBy m c (Proc.devRef .tc main_v5) = fullOf m c :=
  (Pipeline.withArrays_arr spec0 launch0.win.arr_inj c (V0 m c) _ 6).trans (final m c)

/-- The result buffer after the whole program: the edge array. -/
theorem result_eq (c : Dev nD) :
    Pipeline.afterTail₀ cfgs (dats m) 0 (V0 m) [hostOps1, hostOps1_1] c main_v19 = edgesOf m c := by
  rw [Cert.KernelTailRun.result_term, left_eq]
  exact Cert.KernelTail.tail_full _ _ _ _ _

/-- THE RUN: every weakly fair execution of the kernel program terminates with the result at the edge array of the
    arguments and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v19) = edgesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v19 (Pipeline.mem_restRefs_of main_v19 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.RefIndex.lean ====
/-
  The two edge lists of the reference, read at an edge.

  The reference numbers the ordered pairs of distinct nodes of all 16 time steps in one list of 260096 = 16 · 128 · 127
  edges: edge number (128 t + i) · 127 + k is the k-th edge out of node i at time t.  Its two index arrays hold, as
  32-bit words, the flat node numbers of the edge's two ends: 128 t + i for the first end and 128 t + j for the second,
  where j = k + [i ≤ k] is the k-th node other than i.  All these numbers are below 2048, so no word operation wraps,
  the signed reading of each word is the number itself, and the "negative index" correction (add 2048 to an index below
  zero) never applies.
-/
import proofs.«175090_j39195871543399_2_alg».proof.Proof.Gen.ReferenceIdeal.Read
import proofs.«175090_j39195871543399_2_alg».proof.Proof.EdgeSpec

noncomputable section

namespace Cert.RefEdges

open Cert.ReferenceIdeal Cert.ReferenceIdeal.Gen Cert.ReferenceIdeal.Read Idealize.ShloMosaic Idealize.ShloMosaic.ValueIdx
open Cert.EdgeSpec (neighbour neighbour_val)

variable {F : FTy → Type} [FloatOps F]

/-! ## Words that hold small numbers -/

/-- A number below 2³² is the unsigned reading of its word. -/
theorem toNat_word (n : Nat) (hn : n < 4294967296) : (BitVec.ofNat 32 n).toNat = n := by
  rw [BitVec.toNat_ofNat]; exact Nat.mod_eq_of_lt hn

/-- A number below 2³¹ is the signed reading of its word. -/
theorem toInt_word (n : Nat) (hn : n < 2147483648) : (BitVec.ofNat 32 n).toInt = (n : Int) := by
  have h := toNat_word n (by omega)
  rw [BitVec.toInt_eq_toNat_of_lt (by rw [h]; omega), h]

/-- 128 t + i as words: the product and the sum do not wrap. -/
theorem word_first (t i : Nat) (ht : t < 16) (hi : i < 128) :
    IntOp.addi (BitVec.ofNat 32 i) (IntOp.muli (BitVec.ofNat 32 t) 128#32) = BitVec.ofNat 32 (128 * t + i) := by
  unfold IntOp.addi IntOp.muli
  apply BitVec.eq_of_toNat_eq
  simp only [BitVec.toNat_add, BitVec.toNat_mul, BitVec.toNat_ofNat, Nat.reducePow]
  omega

/-- The signed comparison "k ≥ i" of two small numbers' words is the comparison of the numbers. -/
theorem sge_word (k i : Nat) (hk : k < 2147483648) (hi : i < 2147483648) :
    IntOp.cmpi .sge (BitVec.ofNat 32 k) (BitVec.ofNat 32 i) = BitVec.ofBool (decide (i ≤ k)) := by
  show BitVec.ofBool ((BitVec.ofNat 32 i).sle (BitVec.ofNat 32 k)) = _
  rw [BitVec.sle_eq_decide, toInt_word i hi, toInt_word k hk]
  simp only [Int.ofNat_le]

/-- 128 t + (k + [i ≤ k]) as words. -/
theorem word_second (t i k : Nat) (ht : t < 16) (hi : i < 128) (hk : k < 127) :
    IntOp.addi (IntOp.addi (BitVec.ofNat 32 k) ((IntOp.cmpi .sge (BitVec.ofNat 32 k) (BitVec.ofNat 32 i)).setWidth 32))
        (IntOp.muli (BitVec.ofNat 32 t) 128#32)
      = BitVec.ofNat 32 (128 * t + (k + if i ≤ k then 1 else 0)) := by
  rw [sge_word k i (by omega) (by omega)]
  unfold IntOp.addi IntOp.muli
  apply BitVec.eq_of_toNat_eq
  have e1 : (BitVec.ofBool true).setWidth 32 = 1#32 := by decide
  have e0 : (BitVec.ofBool false).setWidth 32 = 0#32 := by decide
  by_cases h : i ≤ k
  · rw [decide_eq_true h, if_pos h, e1]
    simp only [BitVec.toNat_add, BitVec.toNat_mul, BitVec.toNat_ofNat, Nat.reducePow]
    omega
  · rw [decide_eq_false h, if_neg h, e0]
    simp only [BitVec.toNat_add, BitVec.toNat_mul, BitVec.toNat_ofNat, Nat.reducePow]
    omega

/-- An index that is not negative is kept by "index < 0 ? index + 2048 : index". -/
theorem select_word (n : Nat) (hn : n < 2147483648) :
    Scalar.select (IntOp.cmpi .slt (BitVec.ofNat 32 n) 0#32) (IntOp.addi (BitVec.ofNat 32 n) 2048#32) (BitVec.ofNat 32 n)
      = BitVec.ofNat 32 n := by
  have h0 : IntOp.cmpi .slt (BitVec.ofNat 32 n) 0#32 = 0#1 := by
    show BitVec.ofBool ((BitVec.ofNat 32 n).slt 0#32) = _
    rw [BitVec.slt_eq_decide, toInt_word n hn, BitVec.toInt_zero]
    have : ¬ ((n : Int) < 0) := by omega
    rw [decide_eq_false this]
    rfl
  rw [h0, select_zero]

/-! ## The index arrays at an edge -/

/-- The first ends, before the correction: entry (128 t + i) · 127 + k is 128 t + i. -/
theorem first_raw (j : S260096.Idx) (t : Fin 16) (i : Fin 128) (k : Fin 127)
    (hj : (j 0).val = (t.val * 128 + i.val) * 127 + k.val) :
    val_main_v23 (F := F) j = BitVec.ofNat 32 (128 * t.val + i.val) := by
  have ht := t.isLt
  have hi := i.isLt
  have hk := k.isLt
  rw [val_main_v23_apply, val_main_v22_apply, val_main_v20_apply, val_main_v19_apply, val_main_v14_apply, val_main_v13_apply,
    val_main_v2_apply, val_main_v21_apply, val_main_v18_apply, val_main_v17_apply, val_main_v15_apply, val_main_v16_apply,
    val_main_c_apply]
  show IntOp.addi (BitVec.ofNat 32 ((j 0).val % 16256 / 127)) (IntOp.muli (BitVec.ofNat 32 ((j 0).val / 16256)) 128#32) = _
  have h1 : (j 0).val % 16256 / 127 = i.val := by omega
  have h2 : (j 0).val / 16256 = t.val := by omega
  rw [h1, h2]
  exact word_first t.val i.val ht hi

/-- The second ends, before the correction: entry (128 t + i) · 127 + k is 128 t + (k + [i ≤ k]). -/
theorem second_raw (j : S260096.Idx) (t : Fin 16) (i : Fin 128) (k : Fin 127)
    (hj : (j 0).val = (t.val * 128 + i.val) * 127 + k.val) :
    val_main_v28 (F := F) j = BitVec.ofNat 32 (128 * t.val + (neighbour i k).val) := by
  have ht := t.isLt
  have hi := i.isLt
  have hk := k.isLt
  rw [val_main_v28_apply, val_main_v27_apply, val_main_v25_apply, val_main_v24_apply, val_main_v12_apply, val_main_v11_apply,
    val_main_v10_apply, val_main_v3_apply, val_main_v1_apply, val_main_v9_apply, val_main_v8_apply, val_main_v6_apply,
    val_main_v4_apply, val_main_v1_apply, val_main_v7_apply, val_main_v5_apply, val_main_v2_apply,
    val_main_v26_apply, val_main_v18_apply, val_main_v17_apply, val_main_v15_apply, val_main_v16_apply, val_main_c_apply]
  show IntOp.addi (IntOp.addi (BitVec.ofNat 32 ((j 0).val % 16256 % 127))
      ((IntOp.cmpi .sge (BitVec.ofNat 32 ((j 0).val % 16256 % 127)) (BitVec.ofNat 32 ((j 0).val % 16256 / 127))).setWidth 32))
      (IntOp.muli (BitVec.ofNat 32 ((j 0).val / 16256)) 128#32) = _
  have h0 : (j 0).val % 16256 % 127 = k.val := by omega
  have h1 : (j 0).val % 16256 / 127 = i.val := by omega
  have h2 : (j 0).val / 16256 = t.val := by omega
  rw [h0, h1, h2, neighbour_val]
  exact word_second t.val i.val k.val ht hi hk

/-- The first gather's start index at edge (128 t + i) · 127 + k is the word of 128 t + i. -/
theorem first_start (y : S260096x1.Idx) (t : Fin 16) (i : Fin 128) (k : Fin 127)
    (hy : (y 0).val = (t.val * 128 + i.val) * 127 + k.val) :
    val_main_v34 (F := F) y = BitVec.ofNat 32 (128 * t.val + i.val) := by
  have ht := t.isLt
  have hi := i.isLt
  rw [val_main_v34_apply, val_main_v33_apply, val_main_v30_apply, val_main_v32_apply, val_main_v29_apply, val_main_c_0_apply,
    val_main_v31_apply, val_main_c_1_apply, first_raw (idx_main_v34 y) t i k hy]
  exact select_word _ (by omega)

/-- The second gather's start index at edge (128 t + i) · 127 + k is the word of 128 t + j, j the k-th node other than i. -/
theorem second_start (y : S260096x1.Idx) (t : Fin 16) (i : Fin 128) (k : Fin 127)
    (hy : (y 0).val = (t.val * 128 + i.val) * 127 + k.val) :
    val_main_v41 (F := F) y = BitVec.ofNat 32 (128 * t.val + (neighbour i k).val) := by
  have ht := t.isLt
  have hn := (neighbour i k).isLt
  rw [val_main_v41_apply, val_main_v40_apply, val_main_v37_apply, val_main_v39_apply, val_main_v36_apply, val_main_c_2_apply,
    val_main_v38_apply, val_main_c_3_apply, second_raw (idx_main_v41 y) t i k hy]
  exact select_word _ (by omega)

end Cert.RefEdges

end
-- ==== Proof.RefGather.lean ====
/-
  The reference's gather of rows, read at an index.

  The operand is the array of nodes [2048, 64]; the start indices are one column [260096, 1] of 32-bit words; the result
  [260096, 64] takes, for edge e, the whole row whose number is the e-th start index read as a signed integer and
  clamped into [0, 2047]: result (e, d) is the operand at (that row, d).  Axis 0 of the operand is the collapsed axis
  the start index addresses; axis 1 is the one offset axis, copied through.
-/
import proofs.«175090_j39195871543399_2_alg».proof.Proof.Gen.ReferenceIdeal.Read

noncomputable section

namespace Cert.RefEdges

open Cert.ReferenceIdeal Cert.ReferenceIdeal.Gen Idealize.ShloMosaic Idealize.ShloMosaic.ValueIdx

/-- The start-indices index (e, 0) of result index (e, d). -/
abbrev startAt (y : S260096x64.Idx) : S260096x1.Idx :=
  fun a => match a with | ⟨0, _⟩ => ⟨(y 0).val, (y 0).isLt⟩ | ⟨1, _⟩ => ⟨0, Nat.one_pos⟩

/-- The gather at (e, d): the operand at row "start index of e, read signed and clamped into [0, 2047]", column d. -/
theorem gather_rows_apply {α : Type} (x : S2048x64.Idx → α) (idx : IVec S260096x1 32) (y : S260096x64.Idx) :
    Host.gather gather_S2048x64_S260096x1_S260096x64_1_0_n_n_0_1_164 x idx y
      = x (fun a => match a with
        | ⟨0, _⟩ => ⟨min (idx (startAt y)).toInt.toNat 2047, Nat.lt_succ_of_le (Nat.min_le_right _ _)⟩
        | ⟨1, _⟩ => ⟨(y 1).val, (y 1).isLt⟩) := by
  unfold Host.gather
  congr 1
  funext a
  refine Fin.ext ?_
  match a with
  | ⟨0, _⟩ =>
    show gather_S2048x64_S260096x1_S260096x64_1_0_n_n_0_1_164.start y idx 0
      + gather_S2048x64_S260096x1_S260096x64_1_0_n_n_0_1_164.batchCoord y 0
      + gather_S2048x64_S260096x1_S260096x64_1_0_n_n_0_1_164.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x64_S260096x1_S260096x64_1_0_n_n_0_1_164.startIndexMap from
      List.mem_singleton.mpr rfl)]
    have hsi : gather_S2048x64_S260096x1_S260096x64_1_0_n_n_0_1_164.siIdx y
        ⟨List.idxOf (0 : Fin 2) gather_S2048x64_S260096x1_S260096x64_1_0_n_n_0_1_164.startIndexMap,
          List.idxOf_lt_length_iff.2 (List.mem_singleton.mpr rfl)⟩ = startAt y := by
      funext b; refine Fin.ext ?_
      match b with
      | ⟨0, _⟩ => rfl
      | ⟨1, _⟩ => rfl
    rw [hsi]
    rfl
  | ⟨1, _⟩ =>
    show gather_S2048x64_S260096x1_S260096x64_1_0_n_n_0_1_164.start y idx 1
      + gather_S2048x64_S260096x1_S260096x64_1_0_n_n_0_1_164.batchCoord y 1
      + gather_S2048x64_S260096x1_S260096x64_1_0_n_n_0_1_164.offCoord y 1 = (y 1).val
    have hk : (1 : Fin 2) ∈ gather_S2048x64_S260096x1_S260096x64_1_0_n_n_0_1_164.sKept :=
      (GatherDims.mem_sKept _ _).mpr ⟨by decide, List.not_mem_nil⟩
    rw [GatherDims.batchCoord_eq_zero _ _ _ List.not_mem_nil]
    unfold GatherDims.start GatherDims.offCoord
    rw [dif_neg (show ¬ (1 : Fin 2) ∈ gather_S2048x64_S260096x1_S260096x64_1_0_n_n_0_1_164.startIndexMap by decide),
      dif_pos hk]
    have hpos : List.idxOf (1 : Fin 2) gather_S2048x64_S260096x1_S260096x64_1_0_n_n_0_1_164.sKept = 0 := by decide
    have hoff : ∀ (n : Nat) (h : n < gather_S2048x64_S260096x1_S260096x64_1_0_n_n_0_1_164.offsetDims.length), n = 0 →
        gather_S2048x64_S260096x1_S260096x64_1_0_n_n_0_1_164.offsetDims[n]'h = (1 : Fin 2) := by
      intro n h hn; subst hn; rfl
    rw [hoff _ _ hpos, Nat.zero_add]

/-- The same, the caller naming the row and the column. -/
theorem gather_rows_at {α : Type} (x : S2048x64.Idx → α) (idx : IVec S260096x1 32) (y : S260096x64.Idx)
    (r : Fin 2048) (c : Fin 64) (hr : min (idx (startAt y)).toInt.toNat 2047 = r.val) (hc : (y 1).val = c.val) :
    Host.gather gather_S2048x64_S260096x1_S260096x64_1_0_n_n_0_1_164 x idx y = x (ix2 r c) := by
  rw [gather_rows_apply]
  congr 1
  funext a
  refine Fin.ext ?_
  match a with
  | ⟨0, _⟩ => exact hr
  | ⟨1, _⟩ => exact hc

end Cert.RefEdges

end
-- ==== Proof.RefRows.lean ====
/-
  The rows of the two ends of an edge, and their concatenation.

  The array of nodes [2048, 64] is the states [16, 128, 64] with the first two axes merged: node 128 t + i is row i of
  time t.  The first gather therefore lists, for edge (128 t + i) · 127 + k, the row states[t, i, ·], and the second
  the row states[t, j, ·] of the k-th node j other than i; the start indices are at most 2047, so the gather's clamp
  keeps them.  The concatenation along axis 1 puts the first row in columns 0 … 63 and the second in columns 64 … 127.
-/
import proofs.«175090_j39195871543399_2_alg».proof.Proof.RefIndex
import proofs.«175090_j39195871543399_2_alg».proof.Proof.RefGather

noncomputable section

namespace Cert.RefEdges

open Cert.ReferenceIdeal Cert.ReferenceIdeal.Gen Cert.ReferenceIdeal.Read Idealize.ShloMosaic Idealize.ShloMosaic.ValueIdx
open Cert.EdgeSpec (neighbour)

variable {F : FTy → Type} [FloatOps F]

/-- Node 128 t + i is row i of time t. -/
theorem nodes_apply (x0 : (⟨S16x128x64, .f32⟩ : BufTy).Contents (Elt F)) (t : Fin 16) (i : Fin 128) (d : Fin 64)
    (r : Fin 2048) (hr : r.val = 128 * t.val + i.val) :
    val_main_v0 (F := F) x0 (ix2 r d) = x0 (ix3 t i d) := by
  have ht := t.isLt
  have hi := i.isLt
  have hd := d.isLt
  rw [val_main_v0_apply]
  congr 1
  funext a
  refine Fin.ext ?_
  match a with
  | ⟨0, _⟩ => show (r.val * 64 + d.val) / 8192 = t.val; omega
  | ⟨1, _⟩ => show (r.val * 64 + d.val) / 64 % 128 = i.val; omega
  | ⟨2, _⟩ => show (r.val * 64 + d.val) % 64 = d.val; omega

/-- The first end's row: entry ((128 t + i) · 127 + k, d) of the first gather is states[t, i, d]. -/
theorem first_rows (x0 : (⟨S16x128x64, .f32⟩ : BufTy).Contents (Elt F)) (y : S260096x64.Idx)
    (t : Fin 16) (i : Fin 128) (k : Fin 127) (d : Fin 64)
    (hy0 : (y 0).val = (t.val * 128 + i.val) * 127 + k.val) (hy1 : (y 1).val = d.val) :
    val_main_v35 (F := F) x0 y = x0 (ix3 t i d) := by
  have ht := t.isLt
  have hi := i.isLt
  unfold val_main_v35
  rw [gather_rows_at _ _ y ⟨128 * t.val + i.val, by omega⟩ d ?_ hy1, nodes_apply x0 t i d _ rfl]
  rw [first_start (startAt y) t i k hy0, toInt_word _ (by omega)]
  show min (Int.toNat ((128 * t.val + i.val : Nat) : Int)) 2047 = 128 * t.val + i.val
  omega

/-- The second end's row: entry ((128 t + i) · 127 + k, d) of the second gather is states[t, j, d], j the k-th node
    other than i. -/
theorem second_rows (x0 : (⟨S16x128x64, .f32⟩ : BufTy).Contents (Elt F)) (y : S260096x64.Idx)
    (t : Fin 16) (i : Fin 128) (k : Fin 127) (d : Fin 64)
    (hy0 : (y 0).val = (t.val * 128 + i.val) * 127 + k.val) (hy1 : (y 1).val = d.val) :
    val_main_v42 (F := F) x0 y = x0 (ix3 t (neighbour i k) d) := by
  have ht := t.isLt
  have hn := (neighbour i k).isLt
  unfold val_main_v42
  rw [gather_rows_at _ _ y ⟨128 * t.val + (neighbour i k).val, by omega⟩ d ?_ hy1, nodes_apply x0 t (neighbour i k) d _ rfl]
  rw [second_start (startAt y) t i k hy0, toInt_word _ (by omega)]
  show min (Int.toNat ((128 * t.val + (neighbour i k).val : Nat) : Int)) 2047 = 128 * t.val + (neighbour i k).val
  omega

/-- A column below 64 of the concatenation is that column of the first piece. -/
theorem joined_left (x0 : (⟨S16x128x64, .f32⟩ : BufTy).Contents (Elt F)) (z : S260096x128.Idx) (y : S260096x64.Idx)
    (h0 : (y 0).val = (z 0).val) (h1 : (y 1).val = (z 1).val) :
    val_main_v43 (F := F) x0 z = val_main_v35 (F := F) x0 y := by
  unfold val_main_v43
  exact concatenate_pair_apply_left 1 _ _ concatenates_S260096x64_S260096x64_S260096x128_d1 z rfl y
    (fun b => match b with
      | ⟨0, _⟩ => h0
      | ⟨1, _⟩ => h1)

/-- Column 64 + d of the concatenation is column d of the second piece. -/
theorem joined_right (x0 : (⟨S16x128x64, .f32⟩ : BufTy).Contents (Elt F)) (z : S260096x128.Idx) (y : S260096x64.Idx)
    (h0 : (y 0).val = (z 0).val) (h1 : (y 1).val + 64 = (z 1).val) :
    val_main_v43 (F := F) x0 z = val_main_v42 (F := F) x0 y := by
  unfold val_main_v43
  exact concatenate_pair_apply_right 1 _ _ concatenates_S260096x64_S260096x64_S260096x128_d1 z rfl rfl y
    (fun b hb => match b, hb with
      | ⟨0, _⟩, _ => h0
      | ⟨1, _⟩, hb => absurd rfl hb)
    h1

/-- The concatenated row of edge (128 t + i) · 127 + k: states[t, i, d] in column d … -/
theorem joined_first (x0 : (⟨S16x128x64, .f32⟩ : BufTy).Contents (Elt F)) (z : S260096x128.Idx)
    (t : Fin 16) (i : Fin 128) (k : Fin 127) (d : Fin 64)
    (hz0 : (z 0).val = (t.val * 128 + i.val) * 127 + k.val) (hz1 : (z 1).val = d.val) :
    val_main_v43 (F := F) x0 z = x0 (ix3 t i d) := by
  rw [joined_left x0 z (ix2 (z 0) d) rfl hz1.symm, first_rows x0 _ t i k d hz0 rfl]

/-- … and states[t, j, d] in column 64 + d, j the k-th node other than i. -/
theorem joined_second (x0 : (⟨S16x128x64, .f32⟩ : BufTy).Contents (Elt F)) (z : S260096x128.Idx)
    (t : Fin 16) (i : Fin 128) (k : Fin 127) (d : Fin 64)
    (hz0 : (z 0).val = (t.val * 128 + i.val) * 127 + k.val) (hz1 : (z 1).val = 64 + d.val) :
    val_main_v43 (F := F) x0 z = x0 (ix3 t (neighbour i k) d) := by
  rw [joined_right x0 z (ix2 (z 0) d) rfl (by show d.val + 64 = (z 1).val; omega), second_rows x0 _ t i k d hz0 rfl]

end Cert.RefEdges

end
-- ==== Proof.RefEdges.lean ====
/-
  The reference program's result is the array of edge scores.

  At result index (t, i, k) the reference reads edge number (128 t + i) · 127 + k.  The row it multiplies with W1 is
  the concatenation of states[t, i, ·] and states[t, j, ·], j the k-th node other than i, so the 128-term product with
  column h of W1 splits at the joint into the first node's share (rows 0 … 63 of W1) and the second node's share (rows
  64 … 127); adding b1[h] afterwards is, by associativity of the sum, adding it to the second share.  Only the laws of
  an additive commutative monoid are used: a sum over 128 indices split into two sums over 64, and (a + b) + c =
  a + (b + c).  The maximum with the zero word's value, the 256-term product with W2 and the sum with b2 are read
  through unchanged.
-/
import proofs.«175090_j39195871543399_2_alg».proof.Proof.RefRows

noncomputable section

namespace Cert.RefEdges

open Cert.ReferenceIdeal Cert.ReferenceIdeal.Gen Cert.ReferenceIdeal.Read Idealize.ShloMosaic Idealize.ShloMosaic.ValueIdx
open Cert.EdgeSpec

/-- A sum over 128 indices is the sum over the lower 64 plus the sum over the upper 64. -/
theorem sum_split {M : Type} [AddCommMonoid M] (f : Fin 128 → M) :
    ∑ c : Fin 128, f c = ∑ d : Fin 64, f (top d) + ∑ d : Fin 64, f (bot d) := by
  refine (Fin.sum_univ_add (a := 64) (b := 64) (f : Fin (64 + 64) → M)).trans ?_
  congr 1 <;> exact Finset.sum_congr rfl fun d _ => congrArg f (Fin.ext rfl)

/-- The first layer before the maximum, at edge (128 t + i) · 127 + k and hidden unit h: the first node's share plus
    the second node's share with b1[h]. -/
theorem hidden_apply (x0 : (⟨S16x128x64, .f32⟩ : BufTy).Contents (Elt Ideal))
    (x2 : (⟨S128x256, .f32⟩ : BufTy).Contents (Elt Ideal)) (x3 : (⟨S256, .f32⟩ : BufTy).Contents (Elt Ideal))
    (z : S260096x256.Idx) (t : Fin 16) (i : Fin 128) (k : Fin 127) (h : Fin 256)
    (hz0 : (z 0).val = (t.val * 128 + i.val) * 127 + k.val) (hz1 : (z 1).val = h.val) :
    val_main_v47 (F := Ideal) x0 x2 x3 z
      = fromFirst x0 x2 t i h + fromSecond x0 x2 x3 t (neighbour i k) h := by
  rw [val_main_v47_apply, val_main_v44_apply, val_main_v46_apply, val_main_v45_apply, Ideal.addf_def, sum_split (M := EReal)]
  unfold fromFirst fromSecond
  rw [add_assoc]
  have er : ∀ c : Fin 128, ridx_main_v44 z c = ix2 c h := fun c => funext fun a => Fin.ext (by
    match a with
    | ⟨0, _⟩ => rfl
    | ⟨1, _⟩ => exact hz1)
  have eb : idx_main_v45 (idx_main_v46 z) = ix1 h := funext fun a => Fin.ext (by
    match a with
    | ⟨0, _⟩ => exact hz1)
  have h1 : ∀ d : Fin 64, val_main_v43 (F := Ideal) x0 (lidx_main_v44 z (top d)) * x2 (ridx_main_v44 z (top d))
      = x0 (ix3 t i d) * x2 (ix2 (top d) h) := fun d => by
    rw [joined_first x0 (lidx_main_v44 z (top d)) t i k d hz0 rfl, er]
  have h2 : ∀ d : Fin 64, val_main_v43 (F := Ideal) x0 (lidx_main_v44 z (bot d)) * x2 (ridx_main_v44 z (bot d))
      = x0 (ix3 t (neighbour i k) d) * x2 (ix2 (bot d) h) := fun d => by
    rw [joined_second x0 (lidx_main_v44 z (bot d)) t i k d hz0 rfl, er]
  rw [eb, Finset.sum_congr rfl fun d _ => h1 d, Finset.sum_congr rfl fun d _ => h2 d]

/-- The reference's result, as one function of the argument arrays, is the array of edge scores. -/
theorem reference_eq_edges (x0 : (⟨S16x128x64, .f32⟩ : BufTy).Contents (Elt Ideal))
    (x2 : (⟨S128x256, .f32⟩ : BufTy).Contents (Elt Ideal)) (x3 : (⟨S256, .f32⟩ : BufTy).Contents (Elt Ideal))
    (x4 : (⟨S256x1, .f32⟩ : BufTy).Contents (Elt Ideal)) (x5 : (⟨S1, .f32⟩ : BufTy).Contents (Elt Ideal)) :
    Cert.ReferenceIdeal.Read.val_main_v53 (F := Ideal) x0 x2 x3 x4 x5 = Cert.EdgeSpec.edges x0 x2 x3 x4 x5 := by
  funext y
  obtain ⟨t, i, k, rfl⟩ : ∃ (t : Fin 16) (i : Fin 128) (k : Fin 127), y = ix3 t i k := ⟨y 0, y 1, y 2, eq_ix3 y⟩
  have ht := t.isLt
  have hi := i.isLt
  have hk := k.isLt
  rw [edges_ix3]
  unfold score
  rw [val_main_v53_apply, val_main_v52_apply, val_main_v49_apply, val_main_v51_apply, val_main_v50_apply, Ideal.addf_def]
  have e5 : idx_main_v50 (idx_main_v51 (idx_main_v53 (ix3 t i k))) = ix1 (0 : Fin 1) := funext fun a => Fin.ext (by
    match a with
    | ⟨0, _⟩ => rfl)
  rw [e5]
  congr 1
  refine Finset.sum_congr rfl fun h _ => ?_
  have e4 : ridx_main_v49 (idx_main_v53 (ix3 t i k)) h = ix2 h (0 : Fin 1) := funext fun a => Fin.ext (by
    match a with
    | ⟨0, _⟩ => rfl
    | ⟨1, _⟩ => rfl)
  rw [e4, val_main_v48_apply, val_main_call0_v0_apply, val_main_call0_cst_apply, Ideal.maximumf_def, Ideal.ofBits_def,
    Ideal.ofBits_zero_f32,
    hidden_apply x0 x2 x3 (lidx_main_v49 (idx_main_v53 (ix3 t i k)) h) t i k h
      (by show ((t.val * 128 + i.val) * 127 + k.val) / 1 = (t.val * 128 + i.val) * 127 + k.val; omega) rfl]

end Cert.RefEdges

end
-- ==== Proof.lean ====
/- The proof of `Cert.Claim` (proofs.«175090_j39195871543399_2_alg».proof.Defs).

   The programs score every ordered pair of distinct nodes of a graph on 128 nodes, for each of 16 time steps: a two-layer
   perceptron on the concatenation of the two nodes' 64 features, `relu(concat(x_i, x_j) · W1 + b1) · W2 + b2`. The
   kernel computes, per time step, the two nodes' shares of the first layer separately (`x_i` against the upper half of
   `W1`, `x_j` against the lower half, the bias added to the second), forms all 128 × 128 pairs sixteen rows at a time,
   and the host then drops the diagonal by reading each row at the columns of the other nodes. The reference lists the
   pairs as edges, gathers the two nodes' rows, concatenates them and applies the perceptron to each edge.

   On the extended reals the two are one function (Proof/EdgeSpec.lean): the product of a concatenated row with `W1`
   is the sum of the two halves' products — a sum over 128 indices split at 64 —, and adding the bias to the second
   share or to the sum is the same by associativity. Both are laws of a commutative additive monoid, so the claim needs
   no finiteness and the precondition is never opened. The column read after the region and the reference's gathers
   stay in range (the k-th other node of node i is k or k + 1, below 128), so neither the fill value of the one nor the
   clamp of the other is ever met.

   The kernel's side: Proof/KernelTile.lean (one tile of sixteen rows at an index), Proof/KernelShares.lean (the two
   shares, the row of `W2` and `b2` at an index), Proof/KernelBlock.lean (the output block of a grid point as one function
   of its loaded blocks), Proof/KernelArray.lean (the output array after the region), Proof/KernelTail*.lean (the host
   lines after the region), Proof/KernelRun.lean (the run). The reference's side: Proof/Ref*.lean. The three frames are
   the generated ones (the reference's: its generated run with the result dropped); the idealization rewrote nothing, so
   `preserves` is `True`. -/
import proofs.«175090_j39195871543399_2_alg».proof.Defs
import proofs.«175090_j39195871543399_2_alg».proof.Proof.Gen.Kernel
import proofs.«175090_j39195871543399_2_alg».proof.Proof.Gen.Kernel.Skeleton
import proofs.«175090_j39195871543399_2_alg».proof.Proof.Gen.Kernel.Launch
import proofs.«175090_j39195871543399_2_alg».proof.Proof.Gen.Kernel.Points
import proofs.«175090_j39195871543399_2_alg».proof.Proof.Gen.Kernel.Frame
import proofs.«175090_j39195871543399_2_alg».proof.Proof.Gen.KernelIdeal
import proofs.«175090_j39195871543399_2_alg».proof.Proof.Gen.KernelIdeal.Skeleton
import proofs.«175090_j39195871543399_2_alg».proof.Proof.Gen.KernelIdeal.Launch
import proofs.«175090_j39195871543399_2_alg».proof.Proof.Gen.KernelIdeal.Points
import proofs.«175090_j39195871543399_2_alg».proof.Proof.Gen.KernelIdeal.Frame
import proofs.«175090_j39195871543399_2_alg».proof.Proof.Gen.ReferenceIdeal
import proofs.«175090_j39195871543399_2_alg».proof.Proof.Gen.Pre_finite_inputs
import proofs.«175090_j39195871543399_2_alg».proof.Proof.Gen.ReferenceIdeal.Run
import proofs.«175090_j39195871543399_2_alg».proof.Proof.Gen.ReferenceIdeal.Read
import proofs.«175090_j39195871543399_2_alg».proof.Proof.KernelRun
import proofs.«175090_j39195871543399_2_alg».proof.Proof.RefEdges
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference has no kernel: its frame is its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the edge array of those arguments. -/
theorem algebraic : Cert.algebraic_KernelIdeal_ReferenceIdeal := by
  intro m ρ m' ρ' _ hagree
  refine ⟨fun c => Cert.KernelRun.edgesOf m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.RefEdges.reference_eq_edges, (hagree c).1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
